-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_d" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x20x64x512 : Shape := ⟨5, ![32, 1, 20, 64, 512]⟩
abbrev S32x1x20x64 : Shape := ⟨4, ![32, 1, 20, 64]⟩
abbrev S32x1x20x128x512 : Shape := ⟨5, ![32, 1, 20, 128, 512]⟩
abbrev S32x1x20x128 : Shape := ⟨4, ![32, 1, 20, 128]⟩
abbrev S_ : Shape := ⟨0, ![]⟩

class Facts : Prop where
  bcast_S_S32x1x20x64x512 : S_.BroadcastsInDim S32x1x20x64x512 (![] : Fin 0 → Fin S32x1x20x64x512.rank)
  reducesTo_S32x1x20x64x512_S_d0_1_2_3_4 : S32x1x20x64x512.ReducesTo [0, 1, 2, 3, 4] S_
  h_S_ : 0 < S_.numel
  bcast_S_S32x1x20x64 : S_.BroadcastsInDim S32x1x20x64 (![] : Fin 0 → Fin S32x1x20x64.rank)
  reducesTo_S32x1x20x64_S_d0_1_2_3 : S32x1x20x64.ReducesTo [0, 1, 2, 3] S_
  bcast_S_S32x1x20x128x512 : S_.BroadcastsInDim S32x1x20x128x512 (![] : Fin 0 → Fin S32x1x20x128x512.rank)
  reducesTo_S32x1x20x128x512_S_d0_1_2_3_4 : S32x1x20x128x512.ReducesTo [0, 1, 2, 3, 4] S_
  bcast_S_S32x1x20x128 : S_.BroadcastsInDim S32x1x20x128 (![] : Fin 0 → Fin S32x1x20x128.rank)
  reducesTo_S32x1x20x128_S_d0_1_2_3 : S32x1x20x128.ReducesTo [0, 1, 2, 3] S_

variable [Facts]

def fn_part1 {F : FTy → Type} [FloatOps F] (main_v13 : IVec S_ 1) (main_v16 : IVec S32x1x20x128 1) : IVec S_ 1 :=
  let main_c_5 : IVec S_ 1 := constantI S_ 1 1#1
  let main_v17 : IVec S_ 1 := (fun x v => Host.reduce IntOp.andi x v reducesTo_S32x1x20x128_S_d0_1_2_3 h_S_) main_v16 main_c_5
  let main_v18 : IVec S_ 1 := andi main_v13 main_v17
  main_v18

def fn {F : FTy → Type} [FloatOps F] (main_arg0 : FVec F S32x1x20x64x512 .f32) (main_arg1 : FVec F S32x1x20x64 .f32) (main_arg2 : FVec F S32x1x20x128x512 .f32) (main_arg3 : FVec F S32x1x20x128 .f32) : IVec S_ 1 :=
  let main_v0 : FVec F S32x1x20x64x512 .f32 := Host.absf main_arg0
  let main_cst : FVec F S_ .f32 := constant S_ .f32 0x7F800000#32
  let main_v1 : FVec F S32x1x20x64x512 .f32 := broadcastInDim S32x1x20x64x512 ![] bcast_S_S32x1x20x64x512 main_cst
  let main_v2 : IVec S32x1x20x64x512 1 := cmpf .olt main_v0 main_v1
  let main_c : IVec S_ 1 := constantI S_ 1 1#1
  let main_v3 : IVec S_ 1 := (fun x v => Host.reduce IntOp.andi x v reducesTo_S32x1x20x64x512_S_d0_1_2_3_4 h_S_) main_v2 main_c
  let main_v4 : FVec F S32x1x20x64 .f32 := Host.absf main_arg1
  let main_cst_0 : FVec F S_ .f32 := constant S_ .f32 0x7F800000#32
  let main_v5 : FVec F S32x1x20x64 .f32 := broadcastInDim S32x1x20x64 ![] bcast_S_S32x1x20x64 main_cst_0
  let main_v6 : IVec S32x1x20x64 1 := cmpf .olt main_v4 main_v5
  let main_c_1 : IVec S_ 1 := constantI S_ 1 1#1
  let main_v7 : IVec S_ 1 := (fun x v => Host.reduce IntOp.andi x v reducesTo_S32x1x20x64_S_d0_1_2_3 h_S_) main_v6 main_c_1
  let main_v8 : IVec S_ 1 := andi main_v3 main_v7
  let main_v9 : FVec F S32x1x20x128x512 .f32 := Host.absf main_arg2
  let main_cst_2 : FVec F S_ .f32 := constant S_ .f32 0x7F800000#32
  let main_v10 : FVec F S32x1x20x128x512 .f32 := broadcastInDim S32x1x20x128x512 ![] bcast_S_S32x1x20x128x512 main_cst_2
  let main_v11 : IVec S32x1x20x128x512 1 := cmpf .olt main_v9 main_v10
  let main_c_3 : IVec S_ 1 := constantI S_ 1 1#1
  let main_v12 : IVec S_ 1 := (fun x v => Host.reduce IntOp.andi x v reducesTo_S32x1x20x128x512_S_d0_1_2_3_4 h_S_) main_v11 main_c_3
  let main_v13 : IVec S_ 1 := andi main_v8 main_v12
  let main_v14 : FVec F S32x1x20x128 .f32 := Host.absf main_arg3
  let main_cst_4 : FVec F S_ .f32 := constant S_ .f32 0x7F800000#32
  let main_v15 : FVec F S32x1x20x128 .f32 := broadcastInDim S32x1x20x128 ![] bcast_S_S32x1x20x128 main_cst_4
  let main_v16 : IVec S32x1x20x128 1 := cmpf .olt main_v14 main_v15
  fn_part1 (F := F) main_v13 main_v16
-- ==== Kernel.lean ====
abbrev S32x1x20x64x512 : Shape := ⟨5, ![32, 1, 20, 64, 512]⟩
abbrev S32x1x20x64 : Shape := ⟨4, ![32, 1, 20, 64]⟩
abbrev S32x1x20x128x512 : Shape := ⟨5, ![32, 1, 20, 128, 512]⟩
abbrev S32x1x20x128 : Shape := ⟨4, ![32, 1, 20, 128]⟩
abbrev S1x1x20x64x512 : Shape := ⟨5, ![1, 1, 20, 64, 512]⟩
abbrev S1x1x20x64 : Shape := ⟨4, ![1, 1, 20, 64]⟩
abbrev S1x1x20x128x512 : Shape := ⟨5, ![1, 1, 20, 128, 512]⟩
abbrev S1x1x20x128 : Shape := ⟨4, ![1, 1, 20, 128]⟩
abbrev S20x64x512 : Shape := ⟨3, ![20, 64, 512]⟩
abbrev S20x128x512 : Shape := ⟨3, ![20, 128, 512]⟩
abbrev S20x64 : Shape := ⟨2, ![20, 64]⟩
abbrev S20x128 : Shape := ⟨2, ![20, 128]⟩
abbrev S20x128x1 : Shape := ⟨3, ![20, 128, 1]⟩
abbrev S20x1x64 : Shape := ⟨3, ![20, 1, 64]⟩
abbrev S20x128x64 : Shape := ⟨3, ![20, 128, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x1x20x64x512, .f32⟩
  | .hbm, ⟨1, _⟩ => ⟨S32x1x20x64, .f32⟩
  | .hbm, ⟨2, _⟩ => ⟨S32x1x20x128x512, .f32⟩
  | .hbm, ⟨3, _⟩ => ⟨S32x1x20x128, .f32⟩
  | .hbm, ⟨4, _⟩ => ⟨S32x1x20x128x512, .f32⟩
  | .local _ .vmem, ⟨0, _⟩ => ⟨S1x1x20x64x512, .f32⟩
  | .local _ .vmem, ⟨1, _⟩ => ⟨S1x1x20x64x512, .f32⟩
  | .local _ .vmem, ⟨2, _⟩ => ⟨S1x1x20x64, .f32⟩
  | .local _ .vmem, ⟨3, _⟩ => ⟨S1x1x20x64, .f32⟩
  | .local _ .vmem, ⟨4, _⟩ => ⟨S1x1x20x128x512, .f32⟩
  | .local _ .vmem, ⟨5, _⟩ => ⟨S1x1x20x128x512, .f32⟩
  | .local _ .vmem, ⟨6, _⟩ => ⟨S1x1x20x128, .f32⟩
  | .local _ .vmem, ⟨7, _⟩ => ⟨S1x1x20x128, .f32⟩
  | .local _ .vmem, ⟨8, _⟩ => ⟨S1x1x20x128x512, .f32⟩
  | .local _ .vmem, ⟨9, _⟩ => ⟨S1x1x20x128x512, .f32⟩
  | _, _ => ⟨S32x1x20x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1x20x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1x20x64x512_S1x1x20x64x512_0_0_0_0_0 : ∀ a, (![0, 0, 0, 0, 0] : Fin 5 → Nat) a + S1x1x20x64x512.size a ≤ S1x1x20x64x512.size a
  h_S1x1x20x64x512 : 0 < S1x1x20x64x512.numel
  shapeCasts_S1x1x20x64x512_S20x64x512 : S1x1x20x64x512.ShapeCasts S20x64x512
  inb_S1x1x20x128x512_S1x1x20x128x512_0_0_0_0_0 : ∀ a, (![0, 0, 0, 0, 0] : Fin 5 → Nat) a + S1x1x20x128x512.size a ≤ S1x1x20x128x512.size a
  h_S1x1x20x128x512 : 0 < S1x1x20x128x512.numel
  shapeCasts_S1x1x20x128x512_S20x128x512 : S1x1x20x128x512.ShapeCasts S20x128x512
  inb_S1x1x20x64_S1x1x20x64_0_0_0_0 : ∀ a, (![0, 0, 0, 0] : Fin 4 → Nat) a + S1x1x20x64.size a ≤ S1x1x20x64.size a
  h_S1x1x20x64 : 0 < S1x1x20x64.numel
  shapeCasts_S1x1x20x64_S20x64 : S1x1x20x64.ShapeCasts S20x64
  inb_S1x1x20x128_S1x1x20x128_0_0_0_0 : ∀ a, (![0, 0, 0, 0] : Fin 4 → Nat) a + S1x1x20x128.size a ≤ S1x1x20x128.size a
  h_S1x1x20x128 : 0 < S1x1x20x128.numel
  shapeCasts_S1x1x20x128_S20x128 : S1x1x20x128.ShapeCasts S20x128
  reduces_S20x64x512_S20x64 : S20x64x512.Reduces [2] S20x64
  reduces_S20x128x512_S20x128 : S20x128x512.Reduces [2] S20x128
  shapeCasts_S20x128_S20x128x1 : S20x128.ShapeCasts S20x128x1
  shapeCasts_S20x64_S20x1x64 : S20x64.ShapeCasts S20x1x64
  broadcasts_S20x128x1_S20x128x64 : S20x128x1.Broadcasts S20x128x64
  broadcasts_S20x1x64_S20x128x64 : S20x1x64.Broadcasts S20x128x64
  reduces_S20x128x64_S20x128 : S20x128x64.Reduces [2] S20x128
  shapeCasts_S20x128x512_S1x1x20x128x512 : S20x128x512.ShapeCasts S1x1x20x128x512
  dot_S20x128x512_S20x64x512_S20x128x64_2_2_1_1_0_0_wf : DotDims.WF S20x128x512 S20x64x512 S20x128x64 [2] [2] [1] [1] [0] [0]
  dot_S20x128x64_S20x64x512_S20x128x512_2_1_1_2_0_0_wf : DotDims.WF S20x128x64 S20x64x512 S20x128x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x20x64x512.size a ≤ S32x1x20x64x512.size a
  hwx0_0 : ∀ i : grid0.Coords, EltTy.bits .f32 = 32 ∨ (Rect.block (s := S32x1x20x64x512) S1x1x20x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x20x64.size a ≤ S32x1x20x64.size a
  hwx0_1 : ∀ i : grid0.Coords, EltTy.bits .f32 = 32 ∨ (Rect.block (s := S32x1x20x64) S1x1x20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x20x128x512.size a ≤ S32x1x20x128x512.size a
  hwx0_2 : ∀ i : grid0.Coords, EltTy.bits .f32 = 32 ∨ (Rect.block (s := S32x1x20x128x512) S1x1x20x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x20x128.size a ≤ S32x1x20x128.size a
  hwx0_3 : ∀ i : grid0.Coords, EltTy.bits .f32 = 32 ∨ (Rect.block (s := S32x1x20x128) S1x1x20x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x20x128x512.size a ≤ S32x1x20x128x512.size a
  hwx0_4 : ∀ i : grid0.Coords, EltTy.bits .f32 = 32 ∨ (Rect.block (s := S32x1x20x128x512) S1x1x20x128x512.size (cc0_transform_4 i) (hinb0_4 i)).WholeWords (EltTy.packing .f32)

variable [Facts₀]

def dot_S20x128x512_S20x64x512_S20x128x64_2_2_1_1_0_0 : DotDims S20x128x512 S20x64x512 S20x128x64 where
  lhsContracting := [2]
  rhsContracting := [2]
  lhsNonContracting := [1]
  rhsNonContracting := [1]
  lhsBatch := [0]
  rhsBatch := [0]
  wf := dot_S20x128x512_S20x64x512_S20x128x64_2_2_1_1_0_0_wf
def dot_S20x128x64_S20x64x512_S20x128x512_2_1_1_2_0_0 : DotDims S20x128x64 S20x64x512 S20x128x512 where
  lhsContracting := [2]
  rhsContracting := [1]
  lhsNonContracting := [1]
  rhsNonContracting := [2]
  lhsBatch := [0]
  rhsBatch := [0]
  wf := dot_S20x128x64_S20x64x512_S20x128x512_2_1_1_2_0_0_wf

abbrev win0_0 : Pipeline.Window sig grid0 :=
  Pipeline.Window.ofSpec (Memref.whole main_arg0) S1x1x20x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x20x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x20x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x20x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x20x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x20x64x512 : Shape := ⟨5, ![32, 1, 20, 64, 512]⟩
abbrev S32x1x20x64 : Shape := ⟨4, ![32, 1, 20, 64]⟩
abbrev S32x1x20x128x512 : Shape := ⟨5, ![32, 1, 20, 128, 512]⟩
abbrev S32x1x20x128 : Shape := ⟨4, ![32, 1, 20, 128]⟩
abbrev S_ : Shape := ⟨0, ![]⟩
abbrev S32x1x20x128x1 : Shape := ⟨5, ![32, 1, 20, 128, 1]⟩
abbrev S32x1x20x64x1 : Shape := ⟨5, ![32, 1, 20, 64, 1]⟩
abbrev S32x1x20x1x64 : Shape := ⟨5, ![32, 1, 20, 1, 64]⟩
abbrev S32x1x20x128x64 : Shape := ⟨5, ![32, 1, 20, 128, 64]⟩

abbrev nBuf : Space → Nat
  | .hbm => 56
  | .vmem => 0
  | .smem => 0
  | _ => 0

abbrev bufTy : (tb : Table) → Fin (tcTables nBuf tb) → BufTy
  | .hbm, ⟨0, _⟩ => ⟨S32x1x20x64x512, .f32⟩
  | .hbm, ⟨1, _⟩ => ⟨S32x1x20x64, .f32⟩
  | .hbm, ⟨2, _⟩ => ⟨S32x1x20x128x512, .f32⟩
  | .hbm, ⟨3, _⟩ => ⟨S32x1x20x128, .f32⟩
  | .hbm, ⟨4, _⟩ => ⟨S32x1x20x128x512, .f32⟩
  | .hbm, ⟨5, _⟩ => ⟨S_, .f32⟩
  | .hbm, ⟨6, _⟩ => ⟨S32x1x20x128, .f32⟩
  | .hbm, ⟨7, _⟩ => ⟨S32x1x20x128x1, .f32⟩
  | .hbm, ⟨8, _⟩ => ⟨S32x1x20x128x1, .f32⟩
  | .hbm, ⟨9, _⟩ => ⟨S_, .f32⟩
  | .hbm, ⟨10, _⟩ => ⟨S32x1x20x128x1, .f32⟩
  | .hbm, ⟨11, _⟩ => ⟨S32x1x20x128x1, .f32⟩
  | .hbm, ⟨12, _⟩ => ⟨S32x1x20x128x512, .f32⟩
  | .hbm, ⟨13, _⟩ => ⟨S32x1x20x128x512, .f32⟩
  | .hbm, ⟨14, _⟩ => ⟨S32x1x20x64x512, .f32⟩
  | .hbm, ⟨15, _⟩ => ⟨S_, .f32⟩
  | .hbm, ⟨16, _⟩ => ⟨S32x1x20x64, .f32⟩
  | .hbm, ⟨17, _⟩ => ⟨S32x1x20x64x1, .f32⟩
  | .hbm, ⟨18, _⟩ => ⟨S32x1x20x64x1, .f32⟩
  | .hbm, ⟨19, _⟩ => ⟨S_, .f32⟩
  | .hbm, ⟨20, _⟩ => ⟨S32x1x20x64x1, .f32⟩
  | .hbm, ⟨21, _⟩ => ⟨S32x1x20x64x1, .f32⟩
  | .hbm, ⟨22, _⟩ => ⟨S32x1x20x64x512, .f32⟩
  | .hbm, ⟨23, _⟩ => ⟨S32x1x20x64x512, .f32⟩
  | .hbm, ⟨24, _⟩ => ⟨S32x1x20x128x1, .f32⟩
  | .hbm, ⟨25, _⟩ => ⟨S32x1x20x1x64, .f32⟩
  | .hbm, ⟨26, _⟩ => ⟨S32x1x20x128x64, .f32⟩
  | .hbm, ⟨27, _⟩ => ⟨S32x1x20x128x64, .f32⟩
  | .hbm, ⟨28, _⟩ => ⟨S32x1x20x128x64, .f32⟩
  | .hbm, ⟨29, _⟩ => ⟨S32x1x20x128x64, .f32⟩
  | .hbm, ⟨30, _⟩ => ⟨S_, .f32⟩
  | .hbm, ⟨31, _⟩ => ⟨S32x1x20x128x64, .f32⟩
  | .hbm, ⟨32, _⟩ => ⟨S32x1x20x128x64, .f32⟩
  | .hbm, ⟨33, _⟩ => ⟨S_, .f32⟩
  | .hbm, ⟨34, _⟩ => ⟨S32x1x20x128x64, .f32⟩
  | .hbm, ⟨35, _⟩ => ⟨S32x1x20x128x64, .f32⟩
  | .hbm, ⟨36, _⟩ => ⟨S_, .f32⟩
  | .hbm, ⟨37, _⟩ => ⟨S32x1x20x128x64, .f32⟩
  | .hbm, ⟨38, _⟩ => ⟨S32x1x20x128x64, .f32⟩
  | .hbm, ⟨39, _⟩ => ⟨S32x1x20x128x64, .f32⟩
  | .hbm, ⟨40, _⟩ => ⟨S_, .f32⟩
  | .hbm, ⟨41, _⟩ => ⟨S32x1x20x128, .f32⟩
  | .hbm, ⟨42, _⟩ => ⟨S_, .f32⟩
  | .hbm, ⟨43, _⟩ => ⟨S32x1x20x128, .f32⟩
  | .hbm, ⟨44, _⟩ => ⟨S32x1x20x128, .f32⟩
  | .hbm, ⟨45, _⟩ => ⟨S32x1x20x128x1, .f32⟩
  | .hbm, ⟨46, _⟩ => ⟨S32x1x20x128x64, .f32⟩
  | .hbm, ⟨47, _⟩ => ⟨S32x1x20x128x64, .f32⟩
  | .hbm, ⟨48, _⟩ => ⟨S32x1x20x128x64, .f32⟩
  | .hbm, ⟨49, _⟩ => ⟨S_, .f32⟩
  | .hbm, ⟨50, _⟩ => ⟨S32x1x20x128, .f32⟩
  | .hbm, ⟨51, _⟩ => ⟨S32x1x20x128x1, .f32⟩
  | .hbm, ⟨52, _⟩ => ⟨S32x1x20x128x64, .f32⟩
  | .hbm, ⟨53, _⟩ => ⟨S32x1x20x128x64, .f32⟩
  | .hbm, ⟨54, _⟩ => ⟨S32x1x20x128x64, .f32⟩
  | .hbm, ⟨55, _⟩ => ⟨S32x1x20x128x512, .f32⟩
  | _, _ => ⟨S32x1x20x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  reducesTo_S32x1x20x128x512_S32x1x20x128_d4 : S32x1x20x128x512.ReducesTo [4] S32x1x20x128
  h_S_ : 0 < S_.numel
  bcast_S32x1x20x128_S32x1x20x128x1_0_1_2_3 : S32x1x20x128.BroadcastsInDim S32x1x20x128x1 (![0, 1, 2, 3] : Fin 4 → Fin S32x1x20x128x1.rank)
  bcast_S_S32x1x20x128x1 : S_.BroadcastsInDim S32x1x20x128x1 (![] : Fin 0 → Fin S32x1x20x128x1.rank)
  bcast_S32x1x20x128x1_S32x1x20x128x512_0_1_2_3_4 : S32x1x20x128x1.BroadcastsInDim S32x1x20x128x512 (![0, 1, 2, 3, 4] : Fin 5 → Fin S32x1x20x128x512.rank)
  reducesTo_S32x1x20x64x512_S32x1x20x64_d4 : S32x1x20x64x512.ReducesTo [4] S32x1x20x64
  bcast_S32x1x20x64_S32x1x20x64x1_0_1_2_3 : S32x1x20x64.BroadcastsInDim S32x1x20x64x1 (![0, 1, 2, 3] : Fin 4 → Fin S32x1x20x64x1.rank)
  bcast_S_S32x1x20x64x1 : S_.BroadcastsInDim S32x1x20x64x1 (![] : Fin 0 → Fin S32x1x20x64x1.rank)
  bcast_S32x1x20x64x1_S32x1x20x64x512_0_1_2_3_4 : S32x1x20x64x1.BroadcastsInDim S32x1x20x64x512 (![0, 1, 2, 3, 4] : Fin 5 → Fin S32x1x20x64x512.rank)
  bcast_S32x1x20x64_S32x1x20x1x64_0_1_2_4 : S32x1x20x64.BroadcastsInDim S32x1x20x1x64 (![0, 1, 2, 4] : Fin 4 → Fin S32x1x20x1x64.rank)
  bcast_S32x1x20x128x1_S32x1x20x128x64_0_1_2_3_4 : S32x1x20x128x1.BroadcastsInDim S32x1x20x128x64 (![0, 1, 2, 3, 4] : Fin 5 → Fin S32x1x20x128x64.rank)
  bcast_S32x1x20x1x64_S32x1x20x128x64_0_1_2_3_4 : S32x1x20x1x64.BroadcastsInDim S32x1x20x128x64 (![0, 1, 2, 3, 4] : Fin 5 → Fin S32x1x20x128x64.rank)
  bcast_S_S32x1x20x128x64 : S_.BroadcastsInDim S32x1x20x128x64 (![] : Fin 0 → Fin S32x1x20x128x64.rank)
  reducesTo_S32x1x20x128x64_S32x1x20x128_d4 : S32x1x20x128x64.ReducesTo [4] S32x1x20x128
  bcast_S_S32x1x20x128 : S_.BroadcastsInDim S32x1x20x128 (![] : Fin 0 → Fin S32x1x20x128.rank)
  dot_S32x1x20x128x512_S32x1x20x64x512_S32x1x20x128x64_4_4_3_3_012_012_wf : DotDims.WF S32x1x20x128x512 S32x1x20x64x512 S32x1x20x128x64 [4] [4] [3] [3] [0, 1, 2] [0, 1, 2]
  dot_S32x1x20x128x64_S32x1x20x64x512_S32x1x20x128x512_4_3_3_4_012_012_wf : DotDims.WF S32x1x20x128x64 S32x1x20x64x512 S32x1x20x128x512 [4] [3] [3] [4] [0, 1, 2] [0, 1, 2]

variable [Facts₀]

def dot_S32x1x20x128x512_S32x1x20x64x512_S32x1x20x128x64_4_4_3_3_012_012 : DotDims S32x1x20x128x512 S32x1x20x64x512 S32x1x20x128x64 where
  lhsContracting := [4]
  rhsContracting := [4]
  lhsNonContracting := [3]
  rhsNonContracting := [3]
  lhsBatch := [0, 1, 2]
  rhsBatch := [0, 1, 2]
  wf := dot_S32x1x20x128x512_S32x1x20x64x512_S32x1x20x128x64_4_4_3_3_012_012_wf
def dot_S32x1x20x128x64_S32x1x20x64x512_S32x1x20x128x512_4_3_3_4_012_012 : DotDims S32x1x20x128x64 S32x1x20x64x512 S32x1x20x128x512 where
  lhsContracting := [4]
  rhsContracting := [3]
  lhsNonContracting := [3]
  rhsNonContracting := [4]
  lhsBatch := [0, 1, 2]
  rhsBatch := [0, 1, 2]
  wf := dot_S32x1x20x128x64_S32x1x20x64x512_S32x1x20x128x512_4_3_3_4_012_012_wf

class Facts : Prop extends Facts₀ where

variable [Facts]
-- ==== Proof.KLayout.lean ====
/-
  The kernel body's operations that are not pointwise, each read at explicit coordinates.

  A block is `[1, 1, 20, n, 512]` of its array and the body views it `[20, n, 512]`: the view at `(c, r, k)` is the
  block at `(0, 0, c, r, k)`, and back. A per-word value `[20, 128]` spread along the query axis reads its `(c, w)`
  entry at every `(c, w, v)`; a per-query value `[20, 64]` spread along the context axis reads its `(c, v)` entry.
  A lane sum over the last axis is the sum over that coordinate, a lane maximum the fold of `max` from `-∞` over it.
  The two matrix products keep `c` as a batch coordinate: the scores contract the feature axis of a context word
  against a query word's, the output contracts the query axis of a weight row against a feature column.
-/
import proofs.«121530_j47347719471306_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.CQA.K

open Cert.KernelIdeal Cert.KernelIdeal.Gen Idealize.ShloMosaic Idealize.ShloMosaic.ValueIdx

variable {α : Type}

/-! ## Blocks viewed without their unit axes, and back -/

theorem cast_q (x : S1x1x20x64x512.Idx → α) (h : S1x1x20x64x512.ShapeCasts S20x64x512) (c : Fin 20) (v : Fin 64) (k : Fin 512) :
    shapeCast S20x64x512 x h (ix3 c v k) = x (ix5 0 0 c v k) :=
  shapeCast_apply x h (ix3 c v k) (ix5 0 0 c v k) (by
    rw [Shape.rowMajor_val_five, Shape.rowMajor_val_three]
    show ((((0 : ℕ) * 1 + 0) * 20 + c.val) * 64 + v.val) * 512 + k.val = (c.val * 64 + v.val) * 512 + k.val
    omega)

theorem cast_c (x : S1x1x20x128x512.Idx → α) (h : S1x1x20x128x512.ShapeCasts S20x128x512) (c : Fin 20) (w : Fin 128) (k : Fin 512) :
    shapeCast S20x128x512 x h (ix3 c w k) = x (ix5 0 0 c w k) :=
  shapeCast_apply x h (ix3 c w k) (ix5 0 0 c w k) (by
    rw [Shape.rowMajor_val_five, Shape.rowMajor_val_three]
    show ((((0 : ℕ) * 1 + 0) * 20 + c.val) * 128 + w.val) * 512 + k.val = (c.val * 128 + w.val) * 512 + k.val
    omega)

theorem cast_qm (x : S1x1x20x64.Idx → α) (h : S1x1x20x64.ShapeCasts S20x64) (c : Fin 20) (v : Fin 64) :
    shapeCast S20x64 x h (ix2 c v) = x (ix4 0 0 c v) :=
  shapeCast_apply x h (ix2 c v) (ix4 0 0 c v) (by
    rw [Shape.rowMajor_val_four, Shape.rowMajor_val_two]
    show (((0 : ℕ) * 1 + 0) * 20 + c.val) * 64 + v.val = c.val * 64 + v.val
    omega)

theorem cast_cm (x : S1x1x20x128.Idx → α) (h : S1x1x20x128.ShapeCasts S20x128) (c : Fin 20) (w : Fin 128) :
    shapeCast S20x128 x h (ix2 c w) = x (ix4 0 0 c w) :=
  shapeCast_apply x h (ix2 c w) (ix4 0 0 c w) (by
    rw [Shape.rowMajor_val_four, Shape.rowMajor_val_two]
    show (((0 : ℕ) * 1 + 0) * 20 + c.val) * 128 + w.val = c.val * 128 + w.val
    omega)

theorem cast_out (z : S20x128x512.Idx → α) (h : S20x128x512.ShapeCasts S1x1x20x128x512) (c : Fin 20) (w : Fin 128) (d : Fin 512) :
    shapeCast S1x1x20x128x512 z h (ix5 0 0 c w d) = z (ix3 c w d) :=
  shapeCast_apply z h (ix5 0 0 c w d) (ix3 c w d) (by
    rw [Shape.rowMajor_val_five, Shape.rowMajor_val_three]
    show (c.val * 128 + w.val) * 512 + d.val = ((((0 : ℕ) * 1 + 0) * 20 + c.val) * 128 + w.val) * 512 + d.val
    omega)

/-! ## A per-word and a per-query value spread over the score tile -/

/-- A per-word value spread along the query axis. -/
def colB (u : S20x128.Idx → α) : S20x128x64.Idx → α :=
  broadcastTo S20x128x64 (shapeCast S20x128x1 u shapeCasts_S20x128_S20x128x1) broadcasts_S20x128x1_S20x128x64
/-- A per-query value spread along the context axis. -/
def rowB (u : S20x64.Idx → α) : S20x128x64.Idx → α :=
  broadcastTo S20x128x64 (shapeCast S20x1x64 u shapeCasts_S20x64_S20x1x64) broadcasts_S20x1x64_S20x128x64

theorem colB_apply (u : S20x128.Idx → α) (c : Fin 20) (w : Fin 128) (v : Fin 64) : colB u (ix3 c w v) = u (ix2 c w) := by
  unfold colB
  refine (broadcastTo_apply _ _ (ix3 c w v) (ix3 c w (0 : Fin 1)) fun a => by match a with | ⟨0, _⟩ => rfl | ⟨1, _⟩ => rfl | ⟨2, _⟩ => rfl).trans ?_
  exact shapeCast_apply u _ (ix3 c w (0 : Fin 1)) (ix2 c w) (by
    rw [Shape.rowMajor_val_two, Shape.rowMajor_val_three]
    show c.val * 128 + w.val = (c.val * 128 + w.val) * 1 + 0
    omega)

theorem rowB_apply (u : S20x64.Idx → α) (c : Fin 20) (w : Fin 128) (v : Fin 64) : rowB u (ix3 c w v) = u (ix2 c v) := by
  unfold rowB
  refine (broadcastTo_apply _ _ (ix3 c w v) (ix3 c (0 : Fin 1) v) fun a => by match a with | ⟨0, _⟩ => rfl | ⟨1, _⟩ => rfl | ⟨2, _⟩ => rfl).trans ?_
  exact shapeCast_apply u _ (ix3 c (0 : Fin 1) v) (ix2 c v) (by
    rw [Shape.rowMajor_val_two, Shape.rowMajor_val_three]
    show c.val * 64 + v.val = (c.val * 1 + 0) * 64 + v.val
    omega)

/-! ## Lane sums and the lane maximum -/

theorem sum_q (src : FVec Ideal S20x64x512 .f32) (hφ : FKind.Formats .f32)
    (hacc : (0x00000000#32 : BitVec 32) = FKind.add.neutral .f32 hφ) (c : Fin 20) (v : Fin 64) :
    multiReduction .add [2] S20x64 src 0x00000000#32 reduces_S20x64x512_S20x64 hφ hacc (ix2 c v) = ∑ k : Fin 512, src (ix3 c v k) :=
  (Ideal.multiReduction_add_single src _ reduces_S20x64x512_S20x64 hφ hacc (ix2 c v)).trans
    (Finset.sum_congr rfl fun k _ => congrArg src (funext fun a => Fin.ext (by match a with | ⟨0, _⟩ => rfl | ⟨1, _⟩ => rfl | ⟨2, _⟩ => rfl)))

theorem sum_c (src : FVec Ideal S20x128x512 .f32) (hφ : FKind.Formats .f32)
    (hacc : (0x00000000#32 : BitVec 32) = FKind.add.neutral .f32 hφ) (c : Fin 20) (w : Fin 128) :
    multiReduction .add [2] S20x128 src 0x00000000#32 reduces_S20x128x512_S20x128 hφ hacc (ix2 c w) = ∑ k : Fin 512, src (ix3 c w k) :=
  (Ideal.multiReduction_add_single src _ reduces_S20x128x512_S20x128 hφ hacc (ix2 c w)).trans
    (Finset.sum_congr rfl fun k _ => congrArg src (funext fun a => Fin.ext (by match a with | ⟨0, _⟩ => rfl | ⟨1, _⟩ => rfl | ⟨2, _⟩ => rfl)))

theorem sum_v (src : FVec Ideal S20x128x64 .f32) (hφ : FKind.Formats .f32)
    (hacc : (0x00000000#32 : BitVec 32) = FKind.add.neutral .f32 hφ) (c : Fin 20) (w : Fin 128) :
    multiReduction .add [2] S20x128 src 0x00000000#32 reduces_S20x128x64_S20x128 hφ hacc (ix2 c w) = ∑ v : Fin 64, src (ix3 c w v) :=
  (Ideal.multiReduction_add_single src _ reduces_S20x128x64_S20x128 hφ hacc (ix2 c w)).trans
    (Finset.sum_congr rfl fun k _ => congrArg src (funext fun a => Fin.ext (by match a with | ⟨0, _⟩ => rfl | ⟨1, _⟩ => rfl | ⟨2, _⟩ => rfl)))

theorem max_v (src : FVec Ideal S20x128x64 .f32) (hφ : FKind.Formats .f32)
    (hacc : (0xFF800000#32 : BitVec 32) = FKind.maximumf.neutral .f32 hφ) (c : Fin 20) (w : Fin 128) :
    multiReduction .maximumf [2] S20x128 src 0xFF800000#32 reduces_S20x128x64_S20x128 hφ hacc (ix2 c w)
      = (Finset.univ : Finset (Fin 64)).fold max (Ideal.ofBits .f32 0xFF800000#32) (fun v => src (ix3 c w v)) :=
  (Ideal.multiReduction_maximumf_single src _ reduces_S20x128x64_S20x128 hφ hacc (ix2 c w)).trans
    (congrArg (fun f => (Finset.univ : Finset (Fin 64)).fold max (Ideal.ofBits .f32 0xFF800000#32) f)
      (funext fun v => congrArg src (funext fun a => Fin.ext (by match a with | ⟨0, _⟩ => rfl | ⟨1, _⟩ => rfl | ⟨2, _⟩ => rfl))))

/-! ## The two matrix products -/

/-! The scores' product `[20,128,512] × [20,64,512] → [20,128,64]`: where each operand is read, axis by axis. -/
theorem d1_l0 (i : S20x128x64.Idx) (q : dot_S20x128x512_S20x64x512_S20x128x64_2_2_1_1_0_0.contr.Idx) :
    (dot_S20x128x512_S20x64x512_S20x128x64_2_2_1_1_0_0.lhsIdx i q 0).val = (i 0).val := by
  unfold DotDims.lhsIdx
  rw [dif_pos (show (0 : Fin S20x128x512.rank) ∈ dot_S20x128x512_S20x64x512_S20x128x64_2_2_1_1_0_0.lhsBatch by decide)]
  rfl
theorem d1_l1 (i : S20x128x64.Idx) (q : dot_S20x128x512_S20x64x512_S20x128x64_2_2_1_1_0_0.contr.Idx) :
    (dot_S20x128x512_S20x64x512_S20x128x64_2_2_1_1_0_0.lhsIdx i q 1).val = (i 1).val := by
  unfold DotDims.lhsIdx
  rw [dif_neg (show ¬(1 : Fin S20x128x512.rank) ∈ dot_S20x128x512_S20x64x512_S20x128x64_2_2_1_1_0_0.lhsBatch by decide), dif_pos (show (1 : Fin S20x128x512.rank) ∈ dot_S20x128x512_S20x64x512_S20x128x64_2_2_1_1_0_0.lhsNonContracting by decide)]
  rfl
theorem d1_l2 (i : S20x128x64.Idx) (q : dot_S20x128x512_S20x64x512_S20x128x64_2_2_1_1_0_0.contr.Idx) :
    (dot_S20x128x512_S20x64x512_S20x128x64_2_2_1_1_0_0.lhsIdx i q 2).val = (q ⟨0, by decide⟩).val :=
  dot_S20x128x512_S20x64x512_S20x128x64_2_2_1_1_0_0.lhsIdx_val_of_single rfl i q
theorem d1_r0 (i : S20x128x64.Idx) (q : dot_S20x128x512_S20x64x512_S20x128x64_2_2_1_1_0_0.contr.Idx) :
    (dot_S20x128x512_S20x64x512_S20x128x64_2_2_1_1_0_0.rhsIdx i q 0).val = (i 0).val := by
  unfold DotDims.rhsIdx
  rw [dif_pos (show (0 : Fin S20x64x512.rank) ∈ dot_S20x128x512_S20x64x512_S20x128x64_2_2_1_1_0_0.rhsBatch by decide)]
  rfl
theorem d1_r1 (i : S20x128x64.Idx) (q : dot_S20x128x512_S20x64x512_S20x128x64_2_2_1_1_0_0.contr.Idx) :
    (dot_S20x128x512_S20x64x512_S20x128x64_2_2_1_1_0_0.rhsIdx i q 1).val = (i 2).val := by
  unfold DotDims.rhsIdx
  rw [dif_neg (show ¬(1 : Fin S20x64x512.rank) ∈ dot_S20x128x512_S20x64x512_S20x128x64_2_2_1_1_0_0.rhsBatch by decide), dif_pos (show (1 : Fin S20x64x512.rank) ∈ dot_S20x128x512_S20x64x512_S20x128x64_2_2_1_1_0_0.rhsNonContracting by decide)]
  rfl
theorem d1_r2 (i : S20x128x64.Idx) (q : dot_S20x128x512_S20x64x512_S20x128x64_2_2_1_1_0_0.contr.Idx) :
    (dot_S20x128x512_S20x64x512_S20x128x64_2_2_1_1_0_0.rhsIdx i q 2).val = (q ⟨0, by decide⟩).val :=
  dot_S20x128x512_S20x64x512_S20x128x64_2_2_1_1_0_0.rhsIdx_val_of_single rfl i q

/-- The scores' product: a context word's features against a query word's, channel by channel. -/
theorem mm1_apply (l : FVec Ideal S20x128x512 .f32) (r : FVec Ideal S20x64x512 .f32) (c : Fin 20) (w : Fin 128) (v : Fin 64) :
    matmul dot_S20x128x512_S20x64x512_S20x128x64_2_2_1_1_0_0 none l r (constant (F := Ideal) S20x128x64 .f32 0x00000000#32) (ix3 c w v)
      = ∑ k : Fin 512, l (ix3 c w k) * r (ix3 c v k) := by
  simp only [matmul]
  rw [Ideal.matmul_constant_zero_apply, ← Equiv.sum_comp (contrEquiv1 dot_S20x128x512_S20x64x512_S20x128x64_2_2_1_1_0_0 512 rfl rfl).symm]
  refine Finset.sum_congr rfl fun k _ => ?_
  have hk := contrEquiv1_symm_val dot_S20x128x512_S20x64x512_S20x128x64_2_2_1_1_0_0 512 rfl rfl k
  have el : dot_S20x128x512_S20x64x512_S20x128x64_2_2_1_1_0_0.lhsIdx (ix3 c w v) ((contrEquiv1 dot_S20x128x512_S20x64x512_S20x128x64_2_2_1_1_0_0 512 rfl rfl).symm k) = ix3 c w k := funext fun a => Fin.ext (by
    match a with
    | ⟨0, _⟩ => exact d1_l0 _ _
    | ⟨1, _⟩ => exact d1_l1 _ _
    | ⟨2, _⟩ => exact (d1_l2 _ _).trans hk)
  have er : dot_S20x128x512_S20x64x512_S20x128x64_2_2_1_1_0_0.rhsIdx (ix3 c w v) ((contrEquiv1 dot_S20x128x512_S20x64x512_S20x128x64_2_2_1_1_0_0 512 rfl rfl).symm k) = ix3 c v k := funext fun a => Fin.ext (by
    match a with
    | ⟨0, _⟩ => exact d1_r0 _ _
    | ⟨1, _⟩ => exact d1_r1 _ _
    | ⟨2, _⟩ => exact (d1_r2 _ _).trans hk)
  rw [el, er]

/-! The output's product `[20,128,64] × [20,64,512] → [20,128,512]`, axis by axis. -/
theorem d2_l0 (i : S20x128x512.Idx) (q : dot_S20x128x64_S20x64x512_S20x128x512_2_1_1_2_0_0.contr.Idx) :
    (dot_S20x128x64_S20x64x512_S20x128x512_2_1_1_2_0_0.lhsIdx i q 0).val = (i 0).val := by
  unfold DotDims.lhsIdx
  rw [dif_pos (show (0 : Fin S20x128x64.rank) ∈ dot_S20x128x64_S20x64x512_S20x128x512_2_1_1_2_0_0.lhsBatch by decide)]
  rfl
theorem d2_l1 (i : S20x128x512.Idx) (q : dot_S20x128x64_S20x64x512_S20x128x512_2_1_1_2_0_0.contr.Idx) :
    (dot_S20x128x64_S20x64x512_S20x128x512_2_1_1_2_0_0.lhsIdx i q 1).val = (i 1).val := by
  unfold DotDims.lhsIdx
  rw [dif_neg (show ¬(1 : Fin S20x128x64.rank) ∈ dot_S20x128x64_S20x64x512_S20x128x512_2_1_1_2_0_0.lhsBatch by decide), dif_pos (show (1 : Fin S20x128x64.rank) ∈ dot_S20x128x64_S20x64x512_S20x128x512_2_1_1_2_0_0.lhsNonContracting by decide)]
  rfl
theorem d2_l2 (i : S20x128x512.Idx) (q : dot_S20x128x64_S20x64x512_S20x128x512_2_1_1_2_0_0.contr.Idx) :
    (dot_S20x128x64_S20x64x512_S20x128x512_2_1_1_2_0_0.lhsIdx i q 2).val = (q ⟨0, by decide⟩).val :=
  dot_S20x128x64_S20x64x512_S20x128x512_2_1_1_2_0_0.lhsIdx_val_of_single rfl i q
theorem d2_r0 (i : S20x128x512.Idx) (q : dot_S20x128x64_S20x64x512_S20x128x512_2_1_1_2_0_0.contr.Idx) :
    (dot_S20x128x64_S20x64x512_S20x128x512_2_1_1_2_0_0.rhsIdx i q 0).val = (i 0).val := by
  unfold DotDims.rhsIdx
  rw [dif_pos (show (0 : Fin S20x64x512.rank) ∈ dot_S20x128x64_S20x64x512_S20x128x512_2_1_1_2_0_0.rhsBatch by decide)]
  rfl
theorem d2_r1 (i : S20x128x512.Idx) (q : dot_S20x128x64_S20x64x512_S20x128x512_2_1_1_2_0_0.contr.Idx) :
    (dot_S20x128x64_S20x64x512_S20x128x512_2_1_1_2_0_0.rhsIdx i q 1).val = (q ⟨0, by decide⟩).val :=
  dot_S20x128x64_S20x64x512_S20x128x512_2_1_1_2_0_0.rhsIdx_val_of_single rfl i q
theorem d2_r2 (i : S20x128x512.Idx) (q : dot_S20x128x64_S20x64x512_S20x128x512_2_1_1_2_0_0.contr.Idx) :
    (dot_S20x128x64_S20x64x512_S20x128x512_2_1_1_2_0_0.rhsIdx i q 2).val = (i 2).val := by
  unfold DotDims.rhsIdx
  rw [dif_neg (show ¬(2 : Fin S20x64x512.rank) ∈ dot_S20x128x64_S20x64x512_S20x128x512_2_1_1_2_0_0.rhsBatch by decide), dif_pos (show (2 : Fin S20x64x512.rank) ∈ dot_S20x128x64_S20x64x512_S20x128x512_2_1_1_2_0_0.rhsNonContracting by decide)]
  rfl

/-- The output's product: a weight row over the query words against one feature of every query word. -/
theorem mm2_apply (l : FVec Ideal S20x128x64 .f32) (r : FVec Ideal S20x64x512 .f32) (c : Fin 20) (w : Fin 128) (d : Fin 512) :
    matmul dot_S20x128x64_S20x64x512_S20x128x512_2_1_1_2_0_0 none l r (constant (F := Ideal) S20x128x512 .f32 0x00000000#32) (ix3 c w d)
      = ∑ v : Fin 64, l (ix3 c w v) * r (ix3 c v d) := by
  simp only [matmul]
  rw [Ideal.matmul_constant_zero_apply, ← Equiv.sum_comp (contrEquiv1 dot_S20x128x64_S20x64x512_S20x128x512_2_1_1_2_0_0 64 rfl rfl).symm]
  refine Finset.sum_congr rfl fun k _ => ?_
  have hk := contrEquiv1_symm_val dot_S20x128x64_S20x64x512_S20x128x512_2_1_1_2_0_0 64 rfl rfl k
  have el : dot_S20x128x64_S20x64x512_S20x128x512_2_1_1_2_0_0.lhsIdx (ix3 c w d) ((contrEquiv1 dot_S20x128x64_S20x64x512_S20x128x512_2_1_1_2_0_0 64 rfl rfl).symm k) = ix3 c w k := funext fun a => Fin.ext (by
    match a with
    | ⟨0, _⟩ => exact d2_l0 _ _
    | ⟨1, _⟩ => exact d2_l1 _ _
    | ⟨2, _⟩ => exact (d2_l2 _ _).trans hk)
  have er : dot_S20x128x64_S20x64x512_S20x128x512_2_1_1_2_0_0.rhsIdx (ix3 c w d) ((contrEquiv1 dot_S20x128x64_S20x64x512_S20x128x512_2_1_1_2_0_0 64 rfl rfl).symm k) = ix3 c k d := funext fun a => Fin.ext (by
    match a with
    | ⟨0, _⟩ => exact d2_r0 _ _
    | ⟨1, _⟩ => exact (d2_r1 _ _).trans hk
    | ⟨2, _⟩ => exact d2_r2 _ _)
  rw [el, er]

end Cert.CQA.K

end
-- ==== Proof.Consts.lean ====
/-
  The float words the two programs spell, as the extended reals they denote: one, the reference's divisor
  16·√2 rounded to single precision (the dyadic 11863283 / 2^19), and the norm floor 1e-12 rounded to single
  precision (the dyadic 9223372 / 2^63, a positive real).
-/
import Idealize.ShloMosaic.PureOps.Ideal

noncomputable section

namespace Cert.CQA.Consts

open Idealize.ShloMosaic

/-- The word of `1.0` denotes `1`. -/
theorem ofBits_one : Ideal.ofBits .f32 0x3F800000#32 = 1 := by
  simp [Ideal.ofBits, Ideal.ieee, -EReal.coe_mul]; norm_num

/-- The reference's divisor denotes the rational `11863283 / 524288`. -/
theorem ofBits_D : Ideal.ofBits .f32 0x41B504F3#32 = ((11863283 / 524288 : ℝ) : EReal) := by
  simp [Ideal.ofBits, Ideal.ieee, -EReal.coe_mul]; norm_num

/-- The norm floor denotes a positive real. -/
theorem ofBits_eps : ∃ e : ℝ, 0 < e ∧ Ideal.ofBits .f32 0x2B8CBCCC#32 = (e : EReal) := by
  refine ⟨9223372 / 9223372036854775808, by norm_num, ?_⟩
  simp [Ideal.ofBits, Ideal.ieee, -EReal.coe_mul]; norm_num

end Cert.CQA.Consts

end
-- ==== Proof.Algebra.lean ====
/-
  The one law that joins the two programs, on the extended reals.

  For real rows `c`, `q` of a context word and a query word, nonzero real norms `nc`, `nq` and a nonzero real
  divisor `D`: dividing every entry by its row's norm, taking the dot product and dividing by `D` is the raw dot
  product times `1/nc`, times `1/nq`, times `1/D`. Every quantity is a real, so the identity is the field
  identity `∑ (cₖ/nc)(qₖ/nq) / D = (∑ cₖ qₖ)(1/nc)(1/nq)(1/D)` carried through the coercion. Finiteness is what
  makes it true: at an infinite entry the two sides are different conventions of `∞ · 0`.

  Beside it: a finite sum of coerced reals is the coercion of the real sum; and the floored Euclidean norm
  `max (√∑ xₖ²) e` of a real row with `e > 0` is a positive real.
-/
import Idealize.ShloMosaic.PureOps.Ideal

noncomputable section

open scoped BigOperators

namespace Cert.CQA

open Idealize.ShloMosaic

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The floored Euclidean norm of a real row is a positive real. -/
theorem norm_real {n : ℕ} (x : Fin n → ℝ) (e : ℝ) (he : 0 < e) :
    ∃ r : ℝ, 0 < r ∧ max (Ideal.sqrt (∑ k, ((x k : ℝ) : EReal) * ((x k : ℝ) : EReal))) (e : EReal) = (r : EReal) := by
  refine ⟨max (Real.sqrt (∑ k, x k * x k)) e, lt_max_of_lt_right he, ?_⟩
  have h1 : (∑ k, ((x k : ℝ) : EReal) * ((x k : ℝ) : EReal)) = ((∑ k, x k * x k : ℝ) : EReal) := by
    rw [← coe_sum]; exact Finset.sum_congr rfl fun k _ => (EReal.coe_mul _ _).symm
  have h2 : ¬ (∑ k, x k * x k) < 0 := not_lt.mpr (Finset.sum_nonneg fun k _ => mul_self_nonneg (x k))
  rw [h1, Ideal.sqrt_coe, if_neg h2]
  exact (EReal.coe_strictMono.monotone.map_max).symm

/-- THE SCORE LAW: normalise, contract, divide — or contract, then scale by the three reciprocals. -/
theorem score_law {n : ℕ} (c q : Fin n → ℝ) (nc nq D : ℝ) (hc : nc ≠ 0) (hq : nq ≠ 0) (hD : D ≠ 0) :
    Ideal.div (∑ k, Ideal.div ((c k : ℝ) : EReal) (nc : EReal) * Ideal.div ((q k : ℝ) : EReal) (nq : EReal)) (D : EReal)
      = (∑ k, ((c k : ℝ) : EReal) * ((q k : ℝ) : EReal)) * Ideal.div 1 (nc : EReal) * Ideal.div 1 (nq : EReal) * ((1 / D : ℝ) : EReal) := by
  have hl : (∑ k, Ideal.div ((c k : ℝ) : EReal) (nc : EReal) * Ideal.div ((q k : ℝ) : EReal) (nq : EReal))
      = ((∑ k, (c k * (1 / nc)) * (q k * (1 / nq)) : ℝ) : EReal) := by
    rw [← coe_sum]
    refine Finset.sum_congr rfl fun k _ => ?_
    rw [Ideal.div_coe hc, Ideal.div_coe hq, ← EReal.coe_mul, ← EReal.coe_mul, ← EReal.coe_mul]
  have hr : (∑ k, ((c k : ℝ) : EReal) * ((q k : ℝ) : EReal)) = ((∑ k, c k * q k : ℝ) : EReal) := by
    rw [← coe_sum]; exact Finset.sum_congr rfl fun k _ => (EReal.coe_mul _ _).symm
  rw [hl, hr, Ideal.div_coe hD, Ideal.div_coe hc, Ideal.div_coe hq, ← EReal.coe_one,
    ← EReal.coe_mul, ← EReal.coe_mul, ← EReal.coe_mul, ← EReal.coe_mul, ← EReal.coe_mul, ← EReal.coe_mul]
  congr 1
  rw [Finset.sum_mul, Finset.sum_mul, Finset.sum_mul, Finset.sum_mul]
  exact Finset.sum_congr rfl fun k _ => by ring

end Cert.CQA

end
-- ==== Proof.Spec.lean ====
/-
  The attention both programs compute, as one function of the four argument arrays, index by index.

  For batch `b`, channel `c`, context word `w` and feature `d`, with `C = context[b,0,c,w,·]`, `Q_v = query[b,0,c,v,·]`
  and the pair mask `M_v = context_mask[b,0,c,w] · query_mask[b,0,c,v]`:

      s_v   = score C Q_v − 1e10 · (1 − M_v)
      out   = ∑_v ( exp (s_v − max_u s_u) / ∑_u exp (s_u − max_u s_u) · M_v ) · query[b,0,c,v,d]

  The two programs differ only in `score`. The reference normalises first: `(∑_k (C_k/‖C‖)(Q_k/‖Q‖)) / D` with
  `D` the single-precision word of 16·√2 and `‖x‖ = max (√∑ x_k²) 1e-12`. The kernel contracts first:
  `(∑_k C_k Q_k) · (1/‖C‖) · (1/‖Q‖) · κ` with `κ` named `1/D`. On rows of real numbers the two agree
  (`scoreR_eq_scoreK`): every norm is a positive real, so the quotients are products with reciprocals and the
  identity is the field's (Algebra's `score_law`).
-/
import Idealize.ShloMosaic.PureOps.Ideal
import Idealize.ShloMosaic.Lib.ValueIdx
import proofs.«121530_j47347719471306_2_alg».proof.Proof.Consts
import proofs.«121530_j47347719471306_2_alg».proof.Proof.Algebra

noncomputable section

open scoped BigOperators

namespace Cert.CQA

open Idealize.ShloMosaic Idealize.ShloMosaic.ValueIdx

/-! ## The scalars the programs spell -/

/-- The norm floor `1e-12` (its single-precision word). -/
def eps : EReal := Ideal.ofBits .f32 0x2B8CBCCC#32
/-- `1.0`. -/
def one : EReal := Ideal.ofBits .f32 0x3F800000#32
/-- The mask penalty `1e10`. -/
def big : EReal := Ideal.ofBits .f32 0x501502F9#32
/-- `-∞`, where a row maximum starts. -/
def negInf : EReal := Ideal.ofBits .f32 0xFF800000#32
/-- The reference's divisor, the word of 16·√2. -/
def dvs : EReal := Ideal.ofBits .f32 0x41B504F3#32
/-- The kernel's scale, named the reciprocal of that word. -/
def kap : EReal := ((524288 / 11863283 : ℝ) : EReal)

/-! ## One row of scores, and the output element it gives -/

/-- The floored Euclidean norm of a feature row. -/
def nrm (x : Fin 512 → EReal) : EReal := max (Ideal.sqrt (∑ k, x k * x k)) eps
/-- What a masked-out pair is pushed down by. -/
def pen (mk : EReal) : EReal := big * (one - mk)
/-- A score row's maximum, from `-∞`. -/
def rowMax (s : Fin 64 → EReal) : EReal := (Finset.univ : Finset (Fin 64)).fold max negInf s
/-- The masked softmax of a score row, contracted against a column of the query. -/
def attn (s mk qc : Fin 64 → EReal) : EReal :=
  ∑ v, Ideal.div (Ideal.exp (s v - rowMax s)) (∑ u, Ideal.exp (s u - rowMax s)) * mk v * qc v

/-- The kernel's score: contract, then scale by the reciprocals of the two norms and by `κ`. -/
def scoreK (c q : Fin 512 → EReal) (mk : EReal) : EReal :=
  (∑ k, c k * q k) * Ideal.div one (nrm c) * Ideal.div one (nrm q) * kap - pen mk
/-- The reference's score: normalise both rows, contract, divide by `D`. -/
def scoreR (c q : Fin 512 → EReal) (mk : EReal) : EReal :=
  Ideal.div (∑ k, Ideal.div (c k) (nrm c) * Ideal.div (q k) (nrm q)) dvs - pen mk

/-- On rows of real numbers the two scores are one number. -/
theorem scoreR_eq_scoreK (c q : Fin 512 → EReal) (mk : EReal)
    (hc : ∀ k, ∃ r : ℝ, c k = (r : EReal)) (hq : ∀ k, ∃ r : ℝ, q k = (r : EReal)) :
    scoreR c q mk = scoreK c q mk := by
  choose c' hc' using hc
  choose q' hq' using hq
  obtain rfl : c = fun k => ((c' k : ℝ) : EReal) := funext hc'
  obtain rfl : q = fun k => ((q' k : ℝ) : EReal) := funext hq'
  obtain ⟨e, he, hee⟩ := Consts.ofBits_eps
  obtain ⟨nc, hnc, hnce⟩ := norm_real c' e he
  obtain ⟨nq, hnq, hnqe⟩ := norm_real q' e he
  have e1 : nrm (fun k => ((c' k : ℝ) : EReal)) = (nc : EReal) := by unfold nrm eps; rw [hee]; exact hnce
  have e2 : nrm (fun k => ((q' k : ℝ) : EReal)) = (nq : EReal) := by unfold nrm eps; rw [hee]; exact hnqe
  unfold scoreR scoreK
  rw [e1, e2]
  unfold dvs one kap
  rw [Consts.ofBits_D, Consts.ofBits_one,
    score_law c' q' nc nq (11863283 / 524288) hnc.ne' hnq.ne' (by norm_num)]
  norm_num

/-! ## The arrays -/

abbrev SQ : Shape := ⟨5, ![32, 1, 20, 64, 512]⟩
abbrev SQM : Shape := ⟨4, ![32, 1, 20, 64]⟩
abbrev SC : Shape := ⟨5, ![32, 1, 20, 128, 512]⟩
abbrev SCM : Shape := ⟨4, ![32, 1, 20, 128]⟩

/-- A context word's feature row. -/
def crow (x2 : SC.Idx → EReal) (b : Fin 32) (c : Fin 20) (w : Fin 128) : Fin 512 → EReal := fun k => x2 (ix5 b 0 c w k)
/-- A query word's feature row. -/
def qrow (x0 : SQ.Idx → EReal) (b : Fin 32) (c : Fin 20) (v : Fin 64) : Fin 512 → EReal := fun k => x0 (ix5 b 0 c v k)
/-- The pair masks of a context word against every query word. -/
def mrow (x1 : SQM.Idx → EReal) (x3 : SCM.Idx → EReal) (b : Fin 32) (c : Fin 20) (w : Fin 128) : Fin 64 → EReal :=
  fun v => x3 (ix4 b 0 c w) * x1 (ix4 b 0 c v)
/-- One feature of every query word. -/
def qcol (x0 : SQ.Idx → EReal) (b : Fin 32) (c : Fin 20) (d : Fin 512) : Fin 64 → EReal := fun v => x0 (ix5 b 0 c v d)

/-- The output element at `(b, 0, c, w, d)` under a score form `sc`. -/
def outAt (sc : (Fin 512 → EReal) → (Fin 512 → EReal) → EReal → EReal)
    (x0 : SQ.Idx → EReal) (x1 : SQM.Idx → EReal) (x2 : SC.Idx → EReal) (x3 : SCM.Idx → EReal)
    (b : Fin 32) (c : Fin 20) (w : Fin 128) (d : Fin 512) : EReal :=
  attn (fun v => sc (crow x2 b c w) (qrow x0 b c v) (mrow x1 x3 b c w v)) (mrow x1 x3 b c w) (qcol x0 b c d)

/-- The whole output array under a score form. -/
def G (sc : (Fin 512 → EReal) → (Fin 512 → EReal) → EReal → EReal)
    (x0 : SQ.Idx → EReal) (x1 : SQM.Idx → EReal) (x2 : SC.Idx → EReal) (x3 : SCM.Idx → EReal) : SC.Idx → EReal :=
  fun i => outAt sc x0 x1 x2 x3 (i 0) (i 2) (i 3) (i 4)

/-- With every query and context entry a real number, the reference's form of the output is the kernel's. -/
theorem G_scoreR_eq_scoreK (x0 : SQ.Idx → EReal) (x1 : SQM.Idx → EReal) (x2 : SC.Idx → EReal) (x3 : SCM.Idx → EReal)
    (h0 : ∀ i, ∃ r : ℝ, x0 i = (r : EReal)) (h2 : ∀ i, ∃ r : ℝ, x2 i = (r : EReal)) :
    G scoreR x0 x1 x2 x3 = G scoreK x0 x1 x2 x3 := by
  funext i
  unfold G outAt
  congr 1
  funext v
  exact scoreR_eq_scoreK _ _ _ (fun k => h2 _) (fun k => h0 _)

end Cert.CQA

end
-- ==== Proof.KPayload.lean ====
/-
  What the kernel body stores, read at one element of the output block.

  From the four loaded blocks — query `x0`, query mask `x1`, context `x2`, context mask `x3`, each `[1, 1, 20, ·, ·]` —
  the body forms the pair mask `x3[c,w] · x1[c,v]`; the raw scores `(∑_k x2[c,w,k] x0[c,v,k]) · (1/‖x2[c,w,·]‖) ·
  (1/‖x0[c,v,·]‖)`; scales them by the named constant and subtracts the mask penalty; takes each row's maximum from `-∞`,
  the shifted exponentials, their row sums, the quotient times the mask; and contracts the weights against the query.
  Element `(0, 0, c, w, d)` of what it stores is therefore the specification's attention row under the kernel's score.
-/
import proofs.«121530_j47347719471306_2_alg».proof.Proof.Gen.KernelIdeal.Skeleton
import proofs.«121530_j47347719471306_2_alg».proof.Proof.KLayout
import proofs.«121530_j47347719471306_2_alg».proof.Proof.Spec
import Idealize.ShloMosaic.PureOps.IdealRules

noncomputable section

open scoped BigOperators

namespace Cert.CQA.K

open Cert.KernelIdeal Cert.KernelIdeal.Gen Idealize.ShloMosaic Idealize.ShloMosaic.ValueIdx Cert.CQA

variable (c : Fin 20) (w : Fin 128) (v : Fin 64) (d : Fin 512)

/-- The kernel's scale denotes the reciprocal of the reference's divisor, by the certificate's table. -/
theorem kap_eq : Named.named (F := Ideal) Cert.KernelIdeal.κ "inv_sqrt_d" (φ := .f32) 0x3D3504F3#32 = kap :=
  IdealRules.named_const.ideal_named_scalar _ _ _ _ rfl

/-! ## The loaded blocks' views, the pair mask, the reciprocal norms, the raw scores -/

/-- The query block viewed `[20, 64, 512]`. -/
theorem pay2_apply (x0 : Vec Ideal S1x1x20x64x512 .f32) (k : Fin 512) :
    k0_pay2 (F := Ideal) x0 (ix3 c v k) = x0 (ix5 0 0 c v k) := cast_q x0 _ c v k

/-- The pair mask. -/
theorem pay3_apply (x1 : Vec Ideal S1x1x20x64 .f32) (x3 : Vec Ideal S1x1x20x128 .f32) :
    k0_pay3 (F := Ideal) x1 x3 (ix3 c w v) = x3 (ix4 0 0 c w) * x1 (ix4 0 0 c v) := by
  have e : k0_pay3 (F := Ideal) x1 x3
      = mulf (colB (shapeCast S20x128 x3 shapeCasts_S1x1x20x128_S20x128)) (rowB (shapeCast S20x64 x1 shapeCasts_S1x1x20x64_S20x64)) := rfl
  rw [e, mulf_apply, colB_apply, rowB_apply, cast_cm, cast_qm]

/-- The reciprocal of every query word's floored norm. -/
def invQ (y : FVec Ideal S20x64x512 .f32) : FVec Ideal S20x64 .f32 :=
  divf (broadcast S20x64 (Scalar.ofBits (F := Ideal) .f32 0x3F800000#32))
    (maximumf (sqrt (multiReduction .add [2] S20x64 (mulf y y) 0x00000000#32 reduces_S20x64x512_S20x64 (.inl rfl) rfl))
      (broadcast S20x64 (Scalar.ofBits (F := Ideal) .f32 0x2B8CBCCC#32)))
/-- The reciprocal of every context word's floored norm. -/
def invC (y : FVec Ideal S20x128x512 .f32) : FVec Ideal S20x128 .f32 :=
  divf (broadcast S20x128 (Scalar.ofBits (F := Ideal) .f32 0x3F800000#32))
    (maximumf (sqrt (multiReduction .add [2] S20x128 (mulf y y) 0x00000000#32 reduces_S20x128x512_S20x128 (.inl rfl) rfl))
      (broadcast S20x128 (Scalar.ofBits (F := Ideal) .f32 0x2B8CBCCC#32)))

theorem invQ_apply (y : FVec Ideal S20x64x512 .f32) :
    invQ y (ix2 c v) = Ideal.div one (nrm (fun k => y (ix3 c v k))) := by
  unfold invQ one nrm eps
  exact congrArg (fun z => Ideal.div (Ideal.ofBits .f32 0x3F800000#32) (max (Ideal.sqrt z) (Ideal.ofBits .f32 0x2B8CBCCC#32)))
    (sum_q (mulf y y) _ _ c v)

theorem invC_apply (y : FVec Ideal S20x128x512 .f32) :
    invC y (ix2 c w) = Ideal.div one (nrm (fun k => y (ix3 c w k))) := by
  unfold invC one nrm eps
  exact congrArg (fun z => Ideal.div (Ideal.ofBits .f32 0x3F800000#32) (max (Ideal.sqrt z) (Ideal.ofBits .f32 0x2B8CBCCC#32)))
    (sum_c (mulf y y) _ _ c w)

/-- The raw scores: the dot product scaled by the two reciprocal norms. -/
theorem pay4_apply (x0 : Vec Ideal S1x1x20x64x512 .f32) (x2 : Vec Ideal S1x1x20x128x512 .f32) :
    k0_pay4 (F := Ideal) x0 x2 (ix3 c w v)
      = (∑ k : Fin 512, x2 (ix5 0 0 c w k) * x0 (ix5 0 0 c v k)) * Ideal.div one (nrm (fun k => x2 (ix5 0 0 c w k)))
          * Ideal.div one (nrm (fun k => x0 (ix5 0 0 c v k))) := by
  have e : k0_pay4 (F := Ideal) x0 x2
      = mulf (mulf (matmul dot_S20x128x512_S20x64x512_S20x128x64_2_2_1_1_0_0 none (shapeCast S20x128x512 x2 shapeCasts_S1x1x20x128x512_S20x128x512)
                (shapeCast S20x64x512 x0 shapeCasts_S1x1x20x64x512_S20x64x512) (constant (F := Ideal) S20x128x64 .f32 0x00000000#32))
              (colB (invC (shapeCast S20x128x512 x2 shapeCasts_S1x1x20x128x512_S20x128x512))))
          (rowB (invQ (shapeCast S20x64x512 x0 shapeCasts_S1x1x20x64x512_S20x64x512))) := rfl
  rw [e, mulf_apply, mulf_apply, mm1_apply, colB_apply, rowB_apply, invC_apply, invQ_apply]
  simp only [cast_c, cast_q]

/-! ## From the scores to the stored block -/

/-- The scores: scaled by the named constant, less the mask penalty. -/
def scoresT (v26 v33 : FVec Ideal S20x128x64 .f32) : FVec Ideal S20x128x64 .f32 :=
  subf (mulf v33 (broadcast S20x128x64 (Named.named (F := Ideal) Cert.KernelIdeal.κ "inv_sqrt_d" (φ := .f32) 0x3D3504F3#32)))
    (mulf (broadcast S20x128x64 (Scalar.ofBits (F := Ideal) .f32 0x501502F9#32))
      (subf (broadcast S20x128x64 (Scalar.ofBits (F := Ideal) .f32 0x3F800000#32)) v26))
/-- Each row's maximum. -/
def rowmaxT (s : FVec Ideal S20x128x64 .f32) : FVec Ideal S20x128 .f32 :=
  multiReduction .maximumf [2] S20x128 s 0xFF800000#32 reduces_S20x128x64_S20x128 (.inl rfl) rfl
/-- The exponentials of the scores less their row's maximum. -/
def expT (s : FVec Ideal S20x128x64 .f32) : FVec Ideal S20x128x64 .f32 := exp (subf s (colB (rowmaxT s)))
/-- Each row's sum. -/
def rowsumT (e : FVec Ideal S20x128x64 .f32) : FVec Ideal S20x128 .f32 :=
  multiReduction .add [2] S20x128 e 0x00000000#32 reduces_S20x128x64_S20x128 (.inl rfl) rfl
/-- The masked softmax weights. -/
def weightsT (s v26 : FVec Ideal S20x128x64 .f32) : FVec Ideal S20x128x64 .f32 :=
  mulf (divf (expT s) (colB (rowsumT (expT s)))) v26

/-- The stored block is the weights contracted against the query, with its two unit axes put back. -/
theorem pay1_eq (v1 : FVec Ideal S20x64x512 .f32) (v26 v33 : FVec Ideal S20x128x64 .f32) :
    k0_pay1 (F := Ideal) v1 v26 v33
      = shapeCast S1x1x20x128x512 (matmul dot_S20x128x64_S20x64x512_S20x128x512_2_1_1_2_0_0 none (weightsT (scoresT v26 v33) v26) v1
          (constant (F := Ideal) S20x128x512 .f32 0x00000000#32)) shapeCasts_S20x128x512_S1x1x20x128x512 := rfl

theorem scoresT_apply (v26 v33 : FVec Ideal S20x128x64 .f32) :
    scoresT v26 v33 (ix3 c w v) = v33 (ix3 c w v) * kap - pen (v26 (ix3 c w v)) := by
  unfold pen big one
  rw [← kap_eq]
  rfl

theorem rowmaxT_apply (s : FVec Ideal S20x128x64 .f32) : rowmaxT s (ix2 c w) = rowMax (fun u => s (ix3 c w u)) := by
  unfold rowmaxT rowMax negInf
  exact max_v s _ _ c w

theorem expT_apply (s : FVec Ideal S20x128x64 .f32) :
    expT s (ix3 c w v) = Ideal.exp (s (ix3 c w v) - rowMax (fun u => s (ix3 c w u))) := by
  show Ideal.exp (s (ix3 c w v) - colB (rowmaxT s) (ix3 c w v)) = _
  rw [colB_apply, rowmaxT_apply]

theorem rowsumT_apply (e : FVec Ideal S20x128x64 .f32) : rowsumT e (ix2 c w) = ∑ u : Fin 64, e (ix3 c w u) := by
  unfold rowsumT
  exact sum_v e _ _ c w

theorem weightsT_apply (s v26 : FVec Ideal S20x128x64 .f32) :
    weightsT s v26 (ix3 c w v) = Ideal.div (expT s (ix3 c w v)) (∑ u : Fin 64, expT s (ix3 c w u)) * v26 (ix3 c w v) := by
  show Ideal.div (expT s (ix3 c w v)) (colB (rowsumT (expT s)) (ix3 c w v)) * v26 (ix3 c w v) = _
  rw [colB_apply, rowsumT_apply]

/-- The stored element, over any scores, mask and query views. -/
theorem pay1_apply (v1 : FVec Ideal S20x64x512 .f32) (v26 v33 : FVec Ideal S20x128x64 .f32) :
    k0_pay1 (F := Ideal) v1 v26 v33 (ix5 0 0 c w d)
      = attn (fun v => v33 (ix3 c w v) * kap - pen (v26 (ix3 c w v))) (fun v => v26 (ix3 c w v)) (fun v => v1 (ix3 c v d)) := by
  rw [pay1_eq, cast_out, mm2_apply]
  unfold attn
  refine Finset.sum_congr rfl fun v _ => ?_
  rw [weightsT_apply]
  simp only [expT_apply, scoresT_apply]

/-- THE STORED ELEMENT from the four loaded blocks: the attention row under the kernel's score. -/
theorem payload_apply (x0 : Vec Ideal S1x1x20x64x512 .f32) (x1 : Vec Ideal S1x1x20x64 .f32)
    (x2 : Vec Ideal S1x1x20x128x512 .f32) (x3 : Vec Ideal S1x1x20x128 .f32) :
    k0_pay1 (F := Ideal) (k0_pay2 x0) (k0_pay3 x1 x3) (k0_pay4 x0 x2) (ix5 0 0 c w d)
      = attn (fun v => scoreK (fun k => x2 (ix5 0 0 c w k)) (fun k => x0 (ix5 0 0 c v k)) (x3 (ix4 0 0 c w) * x1 (ix4 0 0 c v)))
          (fun v => x3 (ix4 0 0 c w) * x1 (ix4 0 0 c v)) (fun v => x0 (ix5 0 0 c v d)) := by
  rw [pay1_apply]
  simp only [pay2_apply, pay3_apply, pay4_apply]
  rfl

end Cert.CQA.K

end
-- ==== Proof.KArray.lean ====
/-
  From what each grid point writes back to the whole output array.

  The grid has one point per batch entry. Point `t` stages batch entry `t` of every operand — each window's block index
  is `(t, 0, …, 0)`, decided over the 32 points — so element `(0, 0, c, r, k)` of a block is element `(t, 0, c, r, k)` of
  its array. The body's stored element is the attention row under the kernel's score (the payload read at an
  element), of exactly those array entries: point `t` writes back block `t` of the specification `G scoreK` of the
  argument arrays. The 32 blocks tile the output (index `i` lies in the block of point `i₀`), so the array ends
  holding `G scoreK` everywhere.
-/
import proofs.«121530_j47347719471306_2_alg».proof.Proof.Gen.KernelIdeal.Value
import proofs.«121530_j47347719471306_2_alg».proof.Proof.KPayload

set_option maxRecDepth 16384

noncomputable section

namespace Cert.CQA.K

open Cert.KernelIdeal Cert.KernelIdeal.Gen Idealize.ShloMosaic Idealize.ShloMosaic.TcCoe Idealize.ShloMosaic.ValueIdx Idealize.SL.Sem Cert.CQA
open Idealize.ShloMosaic.Pipeline (Dat)

variable (m : (ℓ : Loc nD τ sig) → Buf (Elt Ideal) ℓ) (ρ : Dev nD → PrngReg)

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl

/-- Every window's block index at point `t` is `(t, 0, …, 0)`, and there are 32 points: decided over the grid. -/
theorem idx_facts : ∀ t : Fin cfg0.N, t.val < 32
    ∧ win0_0.index t (0 : Fin 5) = t.val ∧ win0_0.index t (1 : Fin 5) = 0 ∧ win0_0.index t (2 : Fin 5) = 0 ∧ win0_0.index t (3 : Fin 5) = 0 ∧ win0_0.index t (4 : Fin 5) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 5) = t.val ∧ win0_2.index t (1 : Fin 5) = 0 ∧ win0_2.index t (2 : Fin 5) = 0 ∧ win0_2.index t (3 : Fin 5) = 0 ∧ win0_2.index t (4 : Fin 5) = 0
    ∧ win0_3.index t (0 : Fin 4) = t.val ∧ win0_3.index t (1 : Fin 4) = 0 ∧ win0_3.index t (2 : Fin 4) = 0 ∧ win0_3.index t (3 : Fin 4) = 0
    ∧ win0_4.index t (0 : Fin 5) = t.val ∧ win0_4.index t (1 : Fin 5) = 0 ∧ win0_4.index t (2 : Fin 5) = 0 ∧ win0_4.index t (3 : Fin 5) = 0 ∧ win0_4.index t (4 : Fin 5) = 0 :=
  (by decide +kernel : ∀ t : Fin grid0.N, _)

/-- Every batch entry is some point's. -/
theorem idx_onto : ∀ q0 : Fin 32, ∃ t : Fin cfg0.N, win0_4.index t = ![q0.val, 0, 0, 0, 0] :=
  (by decide +kernel : ∀ q0 : Fin 32, ∃ t : Fin grid0.N, win0_4.index t = ![q0.val, 0, 0, 0, 0])

/-- The batch entry point `t` works on. -/
def bt (t : Fin cfg0.N) : Fin 32 := ⟨t.val, (idx_facts t).1⟩

/-! ## Where a block's element sits in its array -/

theorem emb_q (t : Fin cfg0.N) (cc : Fin 20) (v : Fin 64) (k : Fin 512) :
    ((cfg0.win 0).blk t).view.emb (ix5 0 0 cc v k) = ix5 (bt t) 0 cc v k := by
  obtain ⟨hN, a0, a1, a2, a3, a4, b0, b1, b2, b3, c0, c1, c2, c3, c4, d0, d1, d2, d3, e0, e1, e2, e3, e4⟩ := idx_facts t
  funext a; apply Fin.ext
  match a with
    | ⟨0, _⟩ => show win0_0.index t (0 : Fin 5) * 1 + 1 * 0 = t.val; omega
    | ⟨1, _⟩ => show win0_0.index t (1 : Fin 5) * 1 + 1 * 0 = 0; omega
    | ⟨2, _⟩ => show win0_0.index t (2 : Fin 5) * 20 + 1 * cc.val = cc.val; omega
    | ⟨3, _⟩ => show win0_0.index t (3 : Fin 5) * 64 + 1 * v.val = v.val; omega
    | ⟨4, _⟩ => show win0_0.index t (4 : Fin 5) * 512 + 1 * k.val = k.val; omega

theorem emb_qm (t : Fin cfg0.N) (cc : Fin 20) (v : Fin 64) :
    ((cfg0.win 1).blk t).view.emb (ix4 0 0 cc v) = ix4 (bt t) 0 cc v := by
  obtain ⟨hN, a0, a1, a2, a3, a4, b0, b1, b2, b3, c0, c1, c2, c3, c4, d0, d1, d2, d3, e0, e1, e2, e3, e4⟩ := idx_facts t
  funext a; apply Fin.ext
  match a with
    | ⟨0, _⟩ => show win0_1.index t (0 : Fin 4) * 1 + 1 * 0 = t.val; omega
    | ⟨1, _⟩ => show win0_1.index t (1 : Fin 4) * 1 + 1 * 0 = 0; omega
    | ⟨2, _⟩ => show win0_1.index t (2 : Fin 4) * 20 + 1 * cc.val = cc.val; omega
    | ⟨3, _⟩ => show win0_1.index t (3 : Fin 4) * 64 + 1 * v.val = v.val; omega

theorem emb_c (t : Fin cfg0.N) (cc : Fin 20) (w : Fin 128) (k : Fin 512) :
    ((cfg0.win 2).blk t).view.emb (ix5 0 0 cc w k) = ix5 (bt t) 0 cc w k := by
  obtain ⟨hN, a0, a1, a2, a3, a4, b0, b1, b2, b3, c0, c1, c2, c3, c4, d0, d1, d2, d3, e0, e1, e2, e3, e4⟩ := idx_facts t
  funext a; apply Fin.ext
  match a with
    | ⟨0, _⟩ => show win0_2.index t (0 : Fin 5) * 1 + 1 * 0 = t.val; omega
    | ⟨1, _⟩ => show win0_2.index t (1 : Fin 5) * 1 + 1 * 0 = 0; omega
    | ⟨2, _⟩ => show win0_2.index t (2 : Fin 5) * 20 + 1 * cc.val = cc.val; omega
    | ⟨3, _⟩ => show win0_2.index t (3 : Fin 5) * 128 + 1 * w.val = w.val; omega
    | ⟨4, _⟩ => show win0_2.index t (4 : Fin 5) * 512 + 1 * k.val = k.val; omega

theorem emb_cm (t : Fin cfg0.N) (cc : Fin 20) (w : Fin 128) :
    ((cfg0.win 3).blk t).view.emb (ix4 0 0 cc w) = ix4 (bt t) 0 cc w := by
  obtain ⟨hN, a0, a1, a2, a3, a4, b0, b1, b2, b3, c0, c1, c2, c3, c4, d0, d1, d2, d3, e0, e1, e2, e3, e4⟩ := idx_facts t
  funext a; apply Fin.ext
  match a with
    | ⟨0, _⟩ => show win0_3.index t (0 : Fin 4) * 1 + 1 * 0 = t.val; omega
    | ⟨1, _⟩ => show win0_3.index t (1 : Fin 4) * 1 + 1 * 0 = 0; omega
    | ⟨2, _⟩ => show win0_3.index t (2 : Fin 4) * 20 + 1 * cc.val = cc.val; omega
    | ⟨3, _⟩ => show win0_3.index t (3 : Fin 4) * 128 + 1 * w.val = w.val; omega

theorem emb_o (t : Fin cfg0.N) (cc : Fin 20) (w : Fin 128) (d : Fin 512) :
    ((cfg0.win 4).blk t).view.emb (ix5 0 0 cc w d) = ix5 (bt t) 0 cc w d := by
  obtain ⟨hN, a0, a1, a2, a3, a4, b0, b1, b2, b3, c0, c1, c2, c3, c4, d0, d1, d2, d3, e0, e1, e2, e3, e4⟩ := idx_facts t
  funext a; apply Fin.ext
  match a with
    | ⟨0, _⟩ => show win0_4.index t (0 : Fin 5) * 1 + 1 * 0 = t.val; omega
    | ⟨1, _⟩ => show win0_4.index t (1 : Fin 5) * 1 + 1 * 0 = 0; omega
    | ⟨2, _⟩ => show win0_4.index t (2 : Fin 5) * 20 + 1 * cc.val = cc.val; omega
    | ⟨3, _⟩ => show win0_4.index t (3 : Fin 5) * 128 + 1 * w.val = w.val; omega
    | ⟨4, _⟩ => show win0_4.index t (4 : Fin 5) * 512 + 1 * d.val = d.val; omega

/-! ## What a point writes back -/

/-- WHAT POINT `t` WRITES BACK is block `t` of the specification, under the kernel's score, of the argument arrays. -/
theorem flushed_eq (c : Dev nD) (t : Fin cfg0.N) :
    (dats m 0 c).flushed 4 t
      = ((cfg0.win 4).blk t).view.read (Elt Ideal) (G scoreK (V m c main_arg0) (V m c main_arg1) (V m c main_arg2) (V m c main_arg3)) := by
  rw [Cert.KernelIdeal.Value.flushed4]
  unfold out0_4
  rw [View.canon_unit_zero hz5]
  simp only [View.ld_unit_zero (S := S1x1x20x64x512) hz5, View.ld_unit_zero (S := S1x1x20x128x512) hz5,
    View.ld_unit_zero (S := S1x1x20x64) hz4, View.ld_unit_zero (S := S1x1x20x128) hz4]
  funext y
  obtain ⟨o1, o2, cc, w, d, rfl⟩ : ∃ (o1 o2 : Fin 1) (cc : Fin 20) (w : Fin 128) (d : Fin 512), y = ix5 o1 o2 cc w d :=
    ⟨y 0, y 1, y 2, y 3, y 4, eq_ix5 y⟩
  obtain rfl : o1 = 0 := Subsingleton.elim _ _
  obtain rfl : o2 = 0 := Subsingleton.elim _ _
  show k0_pay1 (F := Ideal) (k0_pay2 (iblk m c 0 t)) (k0_pay3 (iblk m c 1 t) (iblk m c 3 t)) (k0_pay4 (iblk m c 0 t) (iblk m c 2 t)) (ix5 0 0 cc w d)
    = G scoreK (V m c main_arg0) (V m c main_arg1) (V m c main_arg2) (V m c main_arg3) (((cfg0.win 4).blk t).view.emb (ix5 0 0 cc w d))
  rw [payload_apply, emb_o]
  show _ = outAt scoreK (V m c main_arg0) (V m c main_arg1) (V m c main_arg2) (V m c main_arg3) (bt t) cc w d
  unfold outAt crow qrow mrow qcol
  have h0 : ∀ (v : Fin 64) (k : Fin 512), iblk m c 0 t (ix5 0 0 cc v k) = V m c main_arg0 (ix5 (bt t) 0 cc v k) := fun v k =>
    congrArg (V m c main_arg0) (emb_q t cc v k)
  have h1 : ∀ v : Fin 64, iblk m c 1 t (ix4 0 0 cc v) = V m c main_arg1 (ix4 (bt t) 0 cc v) := fun v =>
    congrArg (V m c main_arg1) (emb_qm t cc v)
  have h2 : ∀ k : Fin 512, iblk m c 2 t (ix5 0 0 cc w k) = V m c main_arg2 (ix5 (bt t) 0 cc w k) := fun k =>
    congrArg (V m c main_arg2) (emb_c t cc w k)
  have h3 : iblk m c 3 t (ix4 0 0 cc w) = V m c main_arg3 (ix4 (bt t) 0 cc w) :=
    congrArg (V m c main_arg3) (emb_cm t cc w)
  simp only [h0, h1, h2, h3]

/-! ## The blocks tile the output -/

/-- An index of the array is in point `t`'s block iff each coordinate is in the block's range on its axis. -/
theorem mem_blk (t : Fin cfg0.N) (i : S32x1x20x128x512.Idx) :
    i ∈ ((cfg0.win 4).blk t).view.set ↔ ∀ a : Fin 5, win0_4.index t a * S1x1x20x128x512.size a ≤ (i a).val
      ∧ (i a).val < win0_4.index t a * S1x1x20x128x512.size a + S1x1x20x128x512.size a := by
  show i ∈ ((View.whole main_v0).slice (win0_4.rect t)).set ↔ _
  rw [View.set_slice_whole, Rect.mem_set_unit]
  exact Iff.rfl

/-- Every index of the output is in the block of the point of its batch entry. -/
theorem cover (i : S32x1x20x128x512.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 20 := (i 2).isLt
  have h3 : (i 3).val < 128 := (i 3).isLt
  have h4 : (i 4).val < 512 := (i 4).isLt
  obtain ⟨t, ht⟩ := idx_onto ⟨(i 0).val, h0⟩
  have q0 : win0_4.index t (0 : Fin 5) = (i 0).val := congrFun ht 0
  have q1 : win0_4.index t (1 : Fin 5) = 0 := congrFun ht 1
  have q2 : win0_4.index t (2 : Fin 5) = 0 := congrFun ht 2
  have q3 : win0_4.index t (3 : Fin 5) = 0 := congrFun ht 3
  have q4 : win0_4.index t (4 : Fin 5) = 0 := congrFun ht 4
  refine ⟨t, flush0_4 t, ?_⟩
  rw [mem_blk]
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 20 ≤ (i 2).val ∧ (i 2).val < win0_4.index t (2 : Fin 5) * 20 + 20; omega
  | ⟨3, _⟩ => show win0_4.index t (3 : Fin 5) * 128 ≤ (i 3).val ∧ (i 3).val < win0_4.index t (3 : Fin 5) * 128 + 128; omega
  | ⟨4, _⟩ => show win0_4.index t (4 : Fin 5) * 512 ≤ (i 4).val ∧ (i 4).val < win0_4.index t (4 : Fin 5) * 512 + 512; omega

/-! ## The array, and the run -/

/-- THE OUTPUT ARRAY after the run is the specification, under the kernel's score, of the argument arrays as launched. -/
theorem final (c : Dev nD) :
    (dats m 0 c).arrAt 4 cfg0.N
      = G scoreK (m ((c : Thread nD τ).loc main_arg0)) (m ((c : Thread nD τ).loc main_arg1))
          (m ((c : Thread nD τ).loc main_arg2)) (m ((c : Thread nD τ).loc main_arg3)) :=
  (dats m 0 c).arrAt_eq_of_cover 4 (G scoreK (V m c main_arg0) (V m c main_arg1) (V m c main_arg2) (V m c main_arg3))
    (fun t _ => flushed_eq m c t) cover

/-- The kernel's run: the result at the specification under the kernel's score, the arguments unchanged. -/
theorem run : θ_run defs (onTc (τ := τ) (main (F := Ideal))) ⟨m, fun _ => 0, ρ⟩ fun r => ∀ c : Dev nD,
      r.2.mem ((c : Thread nD τ).loc main_v0)
        = G scoreK (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.CQA.K

end
-- ==== Proof.RefSide.lean ====
/-
  The reference, one stage at a time at explicit coordinates, is the specification with the reference's score.

  At `(b, 0, c, w, v)`: the pair mask is `context_mask[b,0,c,w] · query_mask[b,0,c,v]`; each normalised entry is the
  entry over its row's floored norm (the host's sum starts from the word of `0.0`, which adds nothing); the score is
  the normalised rows' dot product over `D`, less the mask penalty; the row maximum is `max` of `-∞` with the fold of
  `max` from `-∞` over the query words, which is that fold; the softmax weight times the mask, contracted against the
  query's feature column, is the output element.
-/
import proofs.«121530_j47347719471306_2_alg».proof.Proof.Gen.ReferenceIdeal.Read
import proofs.«121530_j47347719471306_2_alg».proof.Proof.Spec

noncomputable section

open scoped BigOperators

namespace Cert.CQA.R

open Cert.ReferenceIdeal Cert.ReferenceIdeal.Gen Cert.ReferenceIdeal.Read Idealize.ShloMosaic Idealize.ShloMosaic.ValueIdx Cert.CQA

/-- Two rank-4 indices with equal coordinates are equal. -/
local macro "idx4" : tactic => `(tactic| (funext a; apply Fin.ext; match a with | ⟨0, _⟩ => rfl | ⟨1, _⟩ => rfl | ⟨2, _⟩ => rfl | ⟨3, _⟩ => rfl))
/-- Two rank-5 indices with equal coordinates are equal. -/
local macro "idx5" : tactic => `(tactic| (funext a; apply Fin.ext; match a with | ⟨0, _⟩ => rfl | ⟨1, _⟩ => rfl | ⟨2, _⟩ => rfl | ⟨3, _⟩ => rfl | ⟨4, _⟩ => rfl))

variable (b : Fin 32) (c : Fin 20) (w : Fin 128) (v : Fin 64)

/-- The pair mask. -/
theorem mask_at (x1 : (⟨S32x1x20x64, .f32⟩ : BufTy).Contents (Elt Ideal)) (x3 : (⟨S32x1x20x128, .f32⟩ : BufTy).Contents (Elt Ideal)) :
    val_main_v14 (F := Ideal) x1 x3 (ix5 b 0 c w v) = mrow x1 x3 b c w v := by
  rw [val_main_v14_apply, val_main_v12_apply, val_main_v10_apply, val_main_v13_apply, val_main_v11_apply]
  have e1 : idx_main_v10 (idx_main_v12 (ix5 b 0 c w v)) = ix4 b 0 c w := by idx4
  have e2 : idx_main_v11 (idx_main_v13 (ix5 b 0 c w v)) = ix4 b 0 c v := by idx4
  rw [e1, e2]
  rfl

/-- A context word's floored norm. -/
theorem cnorm_at (x2 : (⟨S32x1x20x128x512, .f32⟩ : BufTy).Contents (Elt Ideal)) : val_main_v2 (F := Ideal) x2 (ix5 b 0 c w 0) = nrm (crow x2 b c w) := by
  rw [val_main_v2_apply, val_main_v0_apply, val_main_call0_v2_apply, val_main_call0_v1_apply, val_main_v1_apply,
    val_main_cst_apply, val_main_call0_cst_apply]
  show max (Ideal.sqrt (Ideal.ofBits .f32 0x00000000#32 + _)) (Ideal.ofBits .f32 0x2B8CBCCC#32) = _
  rw [Ideal.ofBits_zero_f32, zero_add]
  unfold nrm crow eps
  refine congrArg (fun z => max (Ideal.sqrt z) (Ideal.ofBits .f32 0x2B8CBCCC#32)) (Finset.sum_congr rfl fun k _ => ?_)
  rw [val_main_call0_v0_apply, (by idx5 : idx_main_call0_v1 (idx_main_call0_v2 (ix5 b 0 c w 0)) k = ix5 b 0 c w k)]
  rfl

/-- A query word's floored norm. -/
theorem qnorm_at (x0 : (⟨S32x1x20x64x512, .f32⟩ : BufTy).Contents (Elt Ideal)) : val_main_v7 (F := Ideal) x0 (ix5 b 0 c v 0) = nrm (qrow x0 b c v) := by
  rw [val_main_v7_apply, val_main_v5_apply, val_main_call1_v2_apply, val_main_call1_v1_apply, val_main_v6_apply,
    val_main_cst_0_apply, val_main_call1_cst_apply]
  show max (Ideal.sqrt (Ideal.ofBits .f32 0x00000000#32 + _)) (Ideal.ofBits .f32 0x2B8CBCCC#32) = _
  rw [Ideal.ofBits_zero_f32, zero_add]
  unfold nrm qrow eps
  refine congrArg (fun z => max (Ideal.sqrt z) (Ideal.ofBits .f32 0x2B8CBCCC#32)) (Finset.sum_congr rfl fun k _ => ?_)
  rw [val_main_call1_v0_apply, (by idx5 : idx_main_call1_v1 (idx_main_call1_v2 (ix5 b 0 c v 0)) k = ix5 b 0 c v k)]
  rfl

/-- The score is the reference's score of the specification. -/
theorem score_at (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) :
    val_main_v22 (F := Ideal) x0 x1 x2 x3 (ix5 b 0 c w v)
      = scoreR (crow x2 b c w) (qrow x0 b c v) (mrow x1 x3 b c w v) := by
  rw [val_main_v22_apply, val_main_v17_apply, val_main_v15_apply, val_main_v16_apply, val_main_cst_1_apply,
    val_main_v21_apply, val_main_v20_apply, val_main_cst_3_apply, val_main_v19_apply, val_main_v18_apply,
    val_main_cst_2_apply, mask_at]
  unfold scoreR pen dvs big one
  show Ideal.div (∑ k : Fin 512, _) (Ideal.ofBits .f32 0x41B504F3#32) - Ideal.ofBits .f32 0x501502F9#32 * (Ideal.ofBits .f32 0x3F800000#32 - _) = _
  refine congrArg (fun z => Ideal.div z (Ideal.ofBits .f32 0x41B504F3#32) - Ideal.ofBits .f32 0x501502F9#32 * (Ideal.ofBits .f32 0x3F800000#32 - mrow x1 x3 b c w v))
    (Finset.sum_congr rfl fun k _ => ?_)
  rw [val_main_v4_apply, val_main_v3_apply, val_main_v9_apply, val_main_v8_apply,
    (by idx5 : lidx_main_v15 (ix5 b 0 c w v) k = ix5 b 0 c w k),
    (by idx5 : ridx_main_v15 (ix5 b 0 c w v) k = ix5 b 0 c v k),
    (by idx5 : idx_main_v3 (ix5 b 0 c w k) = ix5 b 0 c w 0),
    (by idx5 : idx_main_v8 (ix5 b 0 c v k) = ix5 b 0 c v 0), cnorm_at, qnorm_at]
  rfl

/-- The row maximum: `max` of `-∞` with the fold from `-∞` is the fold. -/
theorem rowmax_at (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) :
    val_main_v25 (F := Ideal) x0 x1 x2 x3 (ix4 b 0 c w)
      = rowMax (fun v => val_main_v22 (F := Ideal) x0 x1 x2 x3 (ix5 b 0 c w v)) := by
  rw [val_main_v25_apply, val_main_v24_apply, val_main_cst_5_apply]
  unfold val_main_v23
  rw [Host.reduce_eq_fold_single FloatOps.maximumf _ _ reducesTo_S32x1x20x128x64_S32x1x20x128_d4 (by decide) h_S_,
    val_main_cst_4_apply]
  unfold rowMax negInf
  show max (Ideal.ofBits .f32 0xFF800000#32) ((Finset.univ : Finset (Fin 64)).fold max (Ideal.ofBits .f32 0xFF800000#32) _) = _
  refine (max_eq_right ((Finset.le_fold_max _).mpr (Or.inl le_rfl))).trans ?_
  exact congrArg (fun f => (Finset.univ : Finset (Fin 64)).fold max (Ideal.ofBits .f32 0xFF800000#32) f)
    (funext fun u => congrArg (val_main_v22 (F := Ideal) x0 x1 x2 x3) (by idx5))

/-- The shifted exponential. -/
theorem exp_at (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) :
    val_main_v29 (F := Ideal) x0 x1 x2 x3 (ix5 b 0 c w v)
      = Ideal.exp (val_main_v22 (F := Ideal) x0 x1 x2 x3 (ix5 b 0 c w v)
          - rowMax (fun u => val_main_v22 (F := Ideal) x0 x1 x2 x3 (ix5 b 0 c w u))) := by
  rw [val_main_v29_apply, val_main_v28_apply, val_main_v27_apply, val_main_v26_apply,
    (by idx4 : idx_main_v26 (idx_main_v27 (ix5 b 0 c w v)) = ix4 b 0 c w), rowmax_at]
  rfl

/-- The exponentials' sum over the query words. -/
theorem expsum_at (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) :
    val_main_v30 (F := Ideal) x0 x1 x2 x3 (ix4 b 0 c w)
      = ∑ u : Fin 64, val_main_v29 (F := Ideal) x0 x1 x2 x3 (ix5 b 0 c w u) := by
  rw [val_main_v30_apply, val_main_cst_6_apply]
  show Ideal.ofBits .f32 0x00000000#32 + _ = _
  rw [Ideal.ofBits_zero_f32, zero_add]
  exact Finset.sum_congr rfl fun u _ => congrArg (val_main_v29 (F := Ideal) x0 x1 x2 x3) (by idx5)

/-- The masked softmax weight. -/
theorem weight_at (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) :
    val_main_v34 (F := Ideal) x0 x1 x2 x3 (ix5 b 0 c w v)
      = Ideal.div (val_main_v29 (F := Ideal) x0 x1 x2 x3 (ix5 b 0 c w v))
          (∑ u : Fin 64, val_main_v29 (F := Ideal) x0 x1 x2 x3 (ix5 b 0 c w u)) * mrow x1 x3 b c w v := by
  rw [val_main_v34_apply, val_main_v33_apply, val_main_v32_apply, val_main_v31_apply,
    (by idx4 : idx_main_v31 (idx_main_v32 (ix5 b 0 c w v)) = ix4 b 0 c w), expsum_at, mask_at]
  rfl

/-- THE REFERENCE IS THE SPECIFICATION, with the reference's score. -/
theorem ref_eq (x0 : (⟨S32x1x20x64x512, .f32⟩ : BufTy).Contents (Elt Ideal)) (x1 : (⟨S32x1x20x64, .f32⟩ : BufTy).Contents (Elt Ideal)) (x2 : (⟨S32x1x20x128x512, .f32⟩ : BufTy).Contents (Elt Ideal)) (x3 : (⟨S32x1x20x128, .f32⟩ : BufTy).Contents (Elt Ideal)) : val_main_v35 (F := Ideal) x0 x1 x2 x3 = G scoreR x0 x1 x2 x3 := by
  funext i
  obtain ⟨b, o, c, w, d, rfl⟩ : ∃ (b : Fin 32) (o : Fin 1) (c : Fin 20) (w : Fin 128) (d : Fin 512), i = ix5 b o c w d :=
    ⟨i 0, i 1, i 2, i 3, i 4, eq_ix5 i⟩
  obtain rfl : o = 0 := Subsingleton.elim _ _
  rw [val_main_v35_apply]
  show _ = outAt scoreR x0 x1 x2 x3 b c w d
  unfold outAt attn
  refine Finset.sum_congr rfl fun v _ => ?_
  rw [(by idx5 : lidx_main_v35 (ix5 b 0 c w d) v = ix5 b 0 c w v),
    (by idx5 : ridx_main_v35 (ix5 b 0 c w d) v = ix5 b 0 c v d), weight_at]
  simp only [exp_at, score_at]
  rfl

end Cert.CQA.R

end
-- ==== Proof.Finite.lean ====
/-
  What the precondition says: every query and context entry is a real number.

  The precondition is the conjunction of four `all |x| < +∞`, one per argument. Its value being 1 makes each conjunct 1,
  a conjunct being 1 makes the comparison 1 at every index, and an extended real whose absolute value is below `+∞`
  is neither infinity.
-/
import proofs.«121530_j47347719471306_2_alg».proof.Pre_finite_inputs
import Idealize.ShloMosaic.Lib.ReduceAll
import Idealize.ShloMosaic.Lib.ValueIdx
import Idealize.ShloMosaic.PureOps.Ideal.Laws

noncomputable section

namespace Cert.CQA

open Cert.Pre_finite_inputs Idealize.ShloMosaic

/-- The scalar shape has one index. -/
instance : Subsingleton S_.Idx := ⟨fun a b => funext fun d => d.elim0⟩

/-- An extended real whose absolute value compares below `+∞` is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x using EReal.rec with
  | bot => simp at h'
  | top => simp at h'
  | coe r => exact ⟨r, rfl⟩

/-- Under the precondition the query and the context hold real numbers. -/
theorem finite_of_pre [Cert.Pre_finite_inputs.Facts] (a0 : FVec Ideal S32x1x20x64x512 .f32) (a1 : FVec Ideal S32x1x20x64 .f32)
    (a2 : FVec Ideal S32x1x20x128x512 .f32) (a3 : FVec Ideal S32x1x20x128 .f32)
    (h : fn (F := Ideal) a0 a1 a2 a3 = fun _ => 1#1) :
    (∀ i, ∃ r : ℝ, a0 i = (r : EReal)) ∧ (∀ i, ∃ r : ℝ, a2 i = (r : EReal)) := by
  have h0 := congrFun h ValueIdx.ix0
  dsimp only [fn, fn_part1] at h0
  obtain ⟨h13, -⟩ := IntOp.andi_eq_one.1 h0
  obtain ⟨h8, h12⟩ := IntOp.andi_eq_one.1 h13
  obtain ⟨h3, -⟩ := IntOp.andi_eq_one.1 h8
  exact ⟨fun i => real_of_abs_lt _ (Host.reduce_andi_all _ _ _ _ _ h3 i),
    fun i => real_of_abs_lt _ (Host.reduce_andi_all _ _ _ _ _ h12 i)⟩

end Cert.CQA

end
-- ==== Proof.lean ====
/-
  A context-query attention kernel against its jnp reference, as extended reals.

  For every batch entry `b`, channel `c`, context word `w` and feature `d` both programs return

      ∑_v ( exp (s_v − max_u s_u) / ∑_u exp (s_u − max_u s_u) · M_v ) · query[b,0,c,v,d],
      s_v = score(context[b,0,c,w,·], query[b,0,c,v,·]) − 1e10 · (1 − M_v),   M_v = context_mask[b,0,c,w] · query_mask[b,0,c,v].

  The reference's score normalises each row by its floored Euclidean norm, contracts, and divides by the
  single-precision word `D` of 16·√2. The kernel contracts the raw rows and multiplies by the two reciprocal norms
  and by a constant that the certificate's table names `1/D` (the word the kernel holds is that value rounded to
  single precision; its exact binary value is not the reciprocal of `D`, so without the name the two programs
  differ). With the name, on finite inputs, the two scores are one number: every norm is a positive real, each
  quotient is a product with a reciprocal, and the identity is the field's (Proof/Algebra.lean, Proof/Spec.lean).
  Everything after the score is the same function on both sides.

  The kernel's side: what the body stores, read at an element of the output block, is the attention row under the
  kernel's score (Proof/KLayout.lean, Proof/KPayload.lean); one grid point per batch entry writes back block `b` of
  that function of the argument arrays, and the 32 blocks tile the output (Proof/KArray.lean). The reference's side:
  its operations read one at a time at explicit coordinates are the same function under the reference's score
  (Proof/RefSide.lean). The precondition gives the finiteness the bridge uses (Proof/Finite.lean).
-/
import proofs.«121530_j47347719471306_2_alg».proof.Defs
import proofs.«121530_j47347719471306_2_alg».proof.Proof.Gen.Kernel
import proofs.«121530_j47347719471306_2_alg».proof.Proof.Gen.Kernel.Skeleton
import proofs.«121530_j47347719471306_2_alg».proof.Proof.Gen.Kernel.Launch
import proofs.«121530_j47347719471306_2_alg».proof.Proof.Gen.Kernel.Points
import proofs.«121530_j47347719471306_2_alg».proof.Proof.Gen.Kernel.Frame
import proofs.«121530_j47347719471306_2_alg».proof.Proof.Gen.KernelIdeal
import proofs.«121530_j47347719471306_2_alg».proof.Proof.Gen.KernelIdeal.Skeleton
import proofs.«121530_j47347719471306_2_alg».proof.Proof.Gen.KernelIdeal.Launch
import proofs.«121530_j47347719471306_2_alg».proof.Proof.Gen.KernelIdeal.Points
import proofs.«121530_j47347719471306_2_alg».proof.Proof.Gen.KernelIdeal.Frame
import proofs.«121530_j47347719471306_2_alg».proof.Proof.Gen.KernelIdeal.Value
import proofs.«121530_j47347719471306_2_alg».proof.Proof.Gen.ReferenceIdeal
import proofs.«121530_j47347719471306_2_alg».proof.Proof.Gen.ReferenceIdeal.Run
import proofs.«121530_j47347719471306_2_alg».proof.Proof.Gen.ReferenceIdeal.Read
import proofs.«121530_j47347719471306_2_alg».proof.Proof.Gen.Pre_finite_inputs
import proofs.«121530_j47347719471306_2_alg».proof.Proof.KArray
import proofs.«121530_j47347719471306_2_alg».proof.Proof.RefSide
import proofs.«121530_j47347719471306_2_alg».proof.Proof.Finite
import Idealize.ShloMosaic.Adequacy
import Idealize.ShloMosaic.Init

noncomputable section

namespace Cert.Proof

open Idealize.ShloMosaic Idealize.ShloMosaic.TcCoe Idealize.SL.Sem Cert.CQA

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the table gives the kernel's scale the value `524288 / 11863283`, the
    reciprocal of the reference's divisor `11863283 / 524288`, and the printed constant is that value. -/
theorem preserves : Cert.preserves_Kernel_KernelIdeal :=
  IdealRules.named_const.statement Cert.KernelIdeal.κ "inv_sqrt_d" .f32 0x3D3504F3#32 ((524288 / 11863283 : ℝ) : EReal) rfl

/-- From memories agreeing on the arguments, both programs end with the attention under the kernel's score of the
    kernel's arguments: the kernel by its run; the reference by its run, which is the attention under the
    reference's score of arguments that agree, and on the finite inputs the precondition grants the two scores agree. -/
theorem algebraic : Cert.algebraic_KernelIdeal_ReferenceIdeal := by
  intro m ρ m' ρ' hpre hagree
  refine ⟨_, Cert.CQA.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.CQA.R.ref_eq, (hagree c).1, (hagree c).2.1, (hagree c).2.2.1,
    (hagree c).2.2.2]
  obtain ⟨f0, f2⟩ := finite_of_pre _ _ _ _ (hpre c)
  exact G_scoreR_eq_scoreK _ _ _ _ f0 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
